-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S2x3200000 : Shape := ⟨2, ![2, 3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S4 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x4 .f32) (main_arg4 : FVec F S4 .f32) (main_arg5 : IVec S2x3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x4 .f32 := Host.absf main_arg3
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S2x3200000 : Shape := ⟨2, ![2, 3200000]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x4 : Shape := ⟨2, ![100000, 4]⟩
abbrev S10000x4 : Shape := ⟨2, ![10000, 4]⟩
abbrev S3300000x4 : Shape := ⟨2, ![3300000, 4]⟩
abbrev S1x4 : Shape := ⟨2, ![1, 4]⟩
abbrev S10000 : Shape := ⟨1, ![10000]⟩
abbrev S10000x1 : Shape := ⟨2, ![10000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x4, .f32⟩
  | .hbm, ⟨4, _⟩ => ⟨S4, .f32⟩
  | .hbm, ⟨5, _⟩ => ⟨S2x3200000, .i32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x4, .f32⟩
  | .hbm, ⟨66, _⟩ => ⟨S3300000x1, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x4, .f32⟩
  | .hbm, ⟨76, _⟩ => ⟨S3300000x4, .f32⟩
  | .hbm, ⟨77, _⟩ => ⟨S3300000x4, .f32⟩
  | .hbm, ⟨78, _⟩ => ⟨S_, .f32⟩
  | .hbm, ⟨79, _⟩ => ⟨S100000x4, .f32⟩
  | .hbm, ⟨80, _⟩ => ⟨S3300000x1, .i32⟩
  | .hbm, ⟨81, _⟩ => ⟨S100000x4, .f32⟩
  | .hbm, ⟨82, _⟩ => ⟨S1x4, .f32⟩
  | .hbm, ⟨83, _⟩ => ⟨S100000x4, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x4, .f32⟩
  | .local _ .vmem, ⟨13, _⟩ => ⟨S10000x4, .f32⟩
  | .local _ .vmem, ⟨14, _⟩ => ⟨S10000x4, .f32⟩
  | .local _ .vmem, ⟨15, _⟩ => ⟨S10000x4, .f32⟩
  | .local _ .vmem, ⟨16, _⟩ => ⟨S10000x4, .f32⟩
  | .local _ .vmem, ⟨17, _⟩ => ⟨S1x4, .f32⟩
  | .local _ .vmem, ⟨18, _⟩ => ⟨S10000x4, .f32⟩
  | .local _ .vmem, ⟨19, _⟩ => ⟨S10000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x4 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x4_S64x4_0_0 : ∀ a, (![0, 0] : Fin 2 → Nat) a + S64x4.size a ≤ S64x4.size a
  h_S64x4 : 0 < S64x4.numel
  inb_S10000x4_S10000x4_0_0 : ∀ a, (![0, 0] : Fin 2 → Nat) a + S10000x4.size a ≤ S10000x4.size a
  h_S10000x4 : 0 < S10000x4.numel
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  shapeCasts_S4_S1x4 : S4.ShapeCasts S1x4
  shapeCasts_S10000x4_S10000x4 : S10000x4.ShapeCasts S10000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  reduces_S10000x4_S10000 : S10000x4.Reduces [1] S10000
  shapeCasts_S10000_S10000x1 : S10000.ShapeCasts S10000x1
  broadcasts_S10000x1_S10000x4 : S10000x1.Broadcasts S10000x4
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x4_S10000x4_1_0_0_1_n_n_wf : DotDims.WF S10000x64 S64x4 S10000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x4.size a ≤ S64x4.size a
  hwx2_1 : ∀ i : grid2.Coords, EltTy.bits .f32 = 32 ∨ (Rect.block (s := S64x4) S64x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x4.size a ≤ S100000x4.size a
  hwx2_2 : ∀ i : grid2.Coords, EltTy.bits .f32 = 32 ∨ (Rect.block (s := S100000x4) S10000x4.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x4.size a ≤ S100000x4.size a
  hwx3_0 : ∀ i : grid3.Coords, EltTy.bits .f32 = 32 ∨ (Rect.block (s := S100000x4) S10000x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4.size a ≤ S1x4.size a
  hwx3_1 : ∀ i : grid3.Coords, EltTy.bits .f32 = 32 ∨ (Rect.block (s := S1x4) S1x4.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x4.size a ≤ S100000x4.size a
  hwx3_2 : ∀ i : grid3.Coords, EltTy.bits .f32 = 32 ∨ (Rect.block (s := S100000x4) S10000x4.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x4_S10000x4_1_0_0_1_n_n : DotDims S10000x64 S64x4 S10000x4 where
  lhsContracting := [1]
  rhsContracting := [0]
  lhsNonContracting := [0]
  rhsNonContracting := [1]
  lhsBatch := []
  rhsBatch := []
  wf := dot_S10000x64_S64x4_S10000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x4.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x4 : Shape := ⟨2, ![64, 4]⟩
abbrev S4 : Shape := ⟨1, ![4]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x4 : Shape := ⟨2, ![100000, 4]⟩
abbrev S3300000x4 : Shape := ⟨2, ![3300000, 4]⟩
abbrev S1x4 : Shape := ⟨2, ![1, 4]⟩
abbrev S100000x1 : Shape := ⟨2, ![100000, 1]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x4, .f32⟩
  | .hbm, ⟨4, _⟩ => ⟨S4, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S_, .f32⟩
  | .hbm, ⟨68, _⟩ => ⟨S100000x64, .f32⟩
  | .hbm, ⟨69, _⟩ => ⟨S100000x64, .i1⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x4, .f32⟩
  | .hbm, ⟨75, _⟩ => ⟨S3300000x1, .f32⟩
  | .hbm, ⟨76, _⟩ => ⟨S_, .i32⟩
  | .hbm, ⟨77, _⟩ => ⟨S3300000, .i32⟩
  | .hbm, ⟨78, _⟩ => ⟨S3300000, .i1⟩
  | .hbm, ⟨79, _⟩ => ⟨S_, .i32⟩
  | .hbm, ⟨80, _⟩ => ⟨S3300000, .i32⟩
  | .hbm, ⟨81, _⟩ => ⟨S3300000, .i32⟩
  | .hbm, ⟨82, _⟩ => ⟨S3300000, .i32⟩
  | .hbm, ⟨83, _⟩ => ⟨S3300000x1, .i32⟩
  | .hbm, ⟨84, _⟩ => ⟨S3300000x4, .f32⟩
  | .hbm, ⟨85, _⟩ => ⟨S3300000x4, .f32⟩
  | .hbm, ⟨86, _⟩ => ⟨S3300000x4, .f32⟩
  | .hbm, ⟨87, _⟩ => ⟨S_, .f32⟩
  | .hbm, ⟨88, _⟩ => ⟨S100000x4, .f32⟩
  | .hbm, ⟨89, _⟩ => ⟨S3300000x1, .i32⟩
  | .hbm, ⟨90, _⟩ => ⟨S100000x4, .f32⟩
  | .hbm, ⟨91, _⟩ => ⟨S1x4, .f32⟩
  | .hbm, ⟨92, _⟩ => ⟨S100000x4, .f32⟩
  | .hbm, ⟨93, _⟩ => ⟨S100000x4, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S100000, .f32⟩
  | .hbm, ⟨98, _⟩ => ⟨S100000, .f32⟩
  | .hbm, ⟨99, _⟩ => ⟨S100000x1, .f32⟩
  | .hbm, ⟨100, _⟩ => ⟨S100000x4, .f32⟩
  | .hbm, ⟨101, _⟩ => ⟨S100000x4, .f32⟩
  | .hbm, ⟨102, _⟩ => ⟨S100000x4, .f32⟩
  | .hbm, ⟨103, _⟩ => ⟨S_, .f32⟩
  | .hbm, ⟨104, _⟩ => ⟨S100000, .f32⟩
  | .hbm, ⟨105, _⟩ => ⟨S100000x1, .f32⟩
  | .hbm, ⟨106, _⟩ => ⟨S100000x4, .f32⟩
  | .hbm, ⟨107, _⟩ => ⟨S100000x4, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  reducesTo_S100000x4_S100000_d1 : S100000x4.ReducesTo [1] S100000
  h_S_ : 0 < S_.numel
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x4_S100000x4_1_0_0_1_n_n_wf : DotDims.WF S100000x64 S64x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf

class Facts : Prop extends Facts₀ where

variable [Facts]
-- ==== Proof.KRun.lean ====
/-
  The idealized kernel's run with its result array NAMED: every weakly fair execution of @main terminates, nothing faulting,
  with the result buffer holding what the last region's write-backs leave (the fold of the host stretches and the four
  regions from the launch memory, read at the result buffer) and the six argument arrays as launched.
-/
import proofs.«155087_j42863773614285_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments of @main launched from `m`; the last thread state holds every unscoped buffer at the last
    boundary's contents, which is read against the final state at the result buffer and at each argument. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.KRun

end
-- ==== Proof.Chain.lean ====
/-
  The sparse part both programs share, as named functions of whole arrays at the exact values: the edge lists with the
  self loops appended, the symmetric normalisation, and one layer's message passing.

  * `srcOf e`, `dstOf e` — row 0, row 1 of the edge array [2, 3200000], each followed by 0 … 99999 (the self loops).
  * `degOf dst` — the scatter-add of ones at dst into zeros [100000]; `disOf deg` — rsqrt deg where deg > 0, else 0;
    `normOf src dst dis` — dis gathered at src times dis gathered at dst (a gather index below zero is first moved up by
    100000).
  * `agg64 src dst norm h`, `agg4 src dst norm h` — rows of h gathered at src, each scaled by its edge's norm, scatter-added
    at dst into zeros: one layer's aggregation at 64 and at 4 features.
-/
import proofs.«155087_j42863773614285_2_alg».proof.Proof.Gen.ReferenceIdeal
import Idealize.ShloMosaic.PureOps.Ideal

noncomputable section

namespace Cert.ReferenceIdeal.Chain

open Cert.ReferenceIdeal Idealize.ShloMosaic Facts₀

abbrev EdgeArr := (⟨S2x3200000, .i32⟩ : BufTy).Contents (Elt Ideal)
abbrev IdxVec := (⟨S3300000, .i32⟩ : BufTy).Contents (Elt Ideal)
abbrev IdxCol := (⟨S3300000x1, .i32⟩ : BufTy).Contents (Elt Ideal)

/-- One row of the edge array, then 0 … 99999. -/
def rowLoop (r : Fin 2 → Nat) (hs : S2x3200000.Slices r S1x3200000) (e : EdgeArr) : IdxVec :=
  concatenate S3300000 0 [⟨S3200000, fun i => shapeCast S3200000 (extractStridedSlice S1x3200000 r e hs) shapeCasts_S1x3200000_S3200000 i⟩,
    ⟨S100000, iotaInDim S100000 32 0⟩] concatenates_S3200000_S100000_S3300000_d0

def srcOf (e : EdgeArr) : IdxVec := rowLoop ![0, 0] slices_S2x3200000_S1x3200000_0_0 e
def dstOf (e : EdgeArr) : IdxVec := rowLoop ![1, 0] slices_S2x3200000_S1x3200000_1_0 e

/-- An index vector as a column of start indices. -/
def colOf (s : IdxVec) : IdxCol := broadcastInDim S3300000x1 ![0] bcast_S3300000_S3300000x1_0 s

/-- Gather indices: an index below zero is moved up by 100000; then the column. -/
def gidx (s : IdxVec) : IdxCol :=
  colOf (select (cmpi .slt s (broadcastInDim S3300000 ![] bcast_S_S3300000 (constantI S_ 32 0#32)))
    (addi s (broadcastInDim S3300000 ![] bcast_S_S3300000 (constantI S_ 32 100000#32))) s)

/-- The degrees: ones scatter-added at dst into zeros. -/
def degOf (dst : IdxVec) : FVec Ideal S100000 .f32 :=
  Host.scatterAdd scatter_S100000_S3300000x1_S3300000_n_0_0_1
    (broadcastInDim S100000 ![] bcast_S_S100000 (constant (F := Ideal) S_ .f32 0x00000000#32))
    (colOf dst)
    (broadcastInDim S3300000 ![] bcast_S_S3300000 (constant (F := Ideal) S_ .f32 0x3F800000#32))

/-- deg^(-1/2) where deg > 0, else 0. -/
def disOf (deg : FVec Ideal S100000 .f32) : FVec Ideal S100000 .f32 :=
  select (cmpf .ogt deg (broadcastInDim S100000 ![] bcast_S_S100000 (constant (F := Ideal) S_ .f32 0x00000000#32)))
    (Host.rsqrt deg)
    (broadcastInDim S100000 ![] bcast_S_S100000 (id (constant (F := Ideal) S_ .f32 0x00000000#32)))

/-- The edge weights: dis at src times dis at dst. -/
def normOf (src dst : IdxVec) (dis : FVec Ideal S100000 .f32) : FVec Ideal S3300000 .f32 :=
  mulf (Host.gather gather_S100000_S3300000x1_S3300000_n_0_n_n_0_1_1 dis (gidx src))
    (Host.gather gather_S100000_S3300000x1_S3300000_n_0_n_n_0_1_1 dis (gidx dst))

/-- One layer's aggregation at 64 features. -/
def agg64 (src dst : IdxVec) (norm : FVec Ideal S3300000 .f32) (h : FVec Ideal S100000x64 .f32) : FVec Ideal S100000x64 .f32 :=
  Host.scatterAdd scatter_S100000x64_S3300000x1_S3300000x64_1_0_0_1
    (broadcastInDim S100000x64 ![] bcast_S_S100000x64 (constant (F := Ideal) S_ .f32 0x00000000#32))
    (colOf dst)
    (mulf (broadcastInDim S3300000x64 ![0, 1] bcast_S3300000x1_S3300000x64_0_1 (broadcastInDim S3300000x1 ![0] bcast_S3300000_S3300000x1_0 norm))
      (Host.gather gather_S100000x64_S3300000x1_S3300000x64_1_0_n_n_0_1_164 h (gidx src)))

/-- One layer's aggregation at 4 features. -/
def agg4 (src dst : IdxVec) (norm : FVec Ideal S3300000 .f32) (h : FVec Ideal S100000x4 .f32) : FVec Ideal S100000x4 .f32 :=
  Host.scatterAdd scatter_S100000x4_S3300000x1_S3300000x4_1_0_0_1
    (broadcastInDim S100000x4 ![] bcast_S_S100000x4 (constant (F := Ideal) S_ .f32 0x00000000#32))
    (colOf dst)
    (mulf (broadcastInDim S3300000x4 ![0, 1] bcast_S3300000x1_S3300000x4_0_1 (broadcastInDim S3300000x1 ![0] bcast_S3300000_S3300000x1_0 norm))
      (Host.gather gather_S100000x4_S3300000x1_S3300000x4_1_0_n_n_0_1_14 h (gidx src)))

end Cert.ReferenceIdeal.Chain

end
-- ==== Proof.KStretch.lean ====
/-
  The idealized kernel's five stretches of host operations, each read at the buffers a later region or stretch reads, from
  ANY contents W before the stretch: the edge lists, the degree comparison and reciprocal square root (first stretch); the
  select that makes the normalisation vector (the call of `where`); the edge weights (third); the first layer's aggregation and
  the bias as a row (fourth); the second layer's aggregation and bias (fifth). Each stretch leaves alone what it does not
  write. The sparse operations are the reference's own (the same gathers and scatter-adds over the same shapes), so each
  reading is stated with the shared functions of the edge lists.
-/
import proofs.«155087_j42863773614285_2_alg».proof.Proof.Gen.KernelIdeal.Launch
import proofs.«155087_j42863773614285_2_alg».proof.Proof.Chain
import Idealize.ShloMosaic.Lib.StableHlo.Run

set_option maxRecDepth 16384

noncomputable section

namespace Cert.KernelIdeal.KStretch

open Cert.KernelIdeal Cert.KernelIdeal.Gen
open Idealize.ShloMosaic Idealize.ShloMosaic.TcCoe Idealize.ShloMosaic.StableHlo Idealize.SL.Sem
open Cert.ReferenceIdeal.Chain (srcOf dstOf degOf disOf normOf agg64 agg4)

variable (W : Valuation τ sig (Elt Ideal))

attribute [local irreducible] Host.gather Host.scatterAdd concatenate

/-! ## The first stretch -/

theorem s0_src : after (hostOps0 (F := Ideal)) W (main_v5 : DevRef τ sig) = srcOf (W (main_arg5 : DevRef τ sig)) := by
  after_results_simp; rfl
theorem s0_dst : after (hostOps0 (F := Ideal)) W (main_v6 : DevRef τ sig) = dstOf (W (main_arg5 : DevRef τ sig)) := by
  after_results_simp; rfl
theorem s0_gt : after (hostOps0 (F := Ideal)) W (main_v12 : DevRef τ sig)
    = cmpf .ogt (degOf (dstOf (W (main_arg5 : DevRef τ sig)))) (broadcastInDim S100000 ![] Facts₀.bcast_S_S100000 (constant (F := Ideal) S_ .f32 0x00000000#32)) := by
  after_results_simp; rfl
theorem s0_rsqrt : after (hostOps0 (F := Ideal)) W (main_v13 : DevRef τ sig) = Host.rsqrt (degOf (dstOf (W (main_arg5 : DevRef τ sig)))) := by
  after_results_simp; rfl
theorem s0_zero : after (hostOps0 (F := Ideal)) W (main_cst_2 : DevRef τ sig) = constant (F := Ideal) S_ .f32 0x00000000#32 := by
  after_results_simp
theorem s0_arg0 : after (hostOps0 (F := Ideal)) W (main_arg0 : DevRef τ sig) = W (main_arg0 : DevRef τ sig) := by after_results_simp
theorem s0_arg1 : after (hostOps0 (F := Ideal)) W (main_arg1 : DevRef τ sig) = W (main_arg1 : DevRef τ sig) := by after_results_simp
theorem s0_arg2 : after (hostOps0 (F := Ideal)) W (main_arg2 : DevRef τ sig) = W (main_arg2 : DevRef τ sig) := by after_results_simp
theorem s0_arg3 : after (hostOps0 (F := Ideal)) W (main_arg3 : DevRef τ sig) = W (main_arg3 : DevRef τ sig) := by after_results_simp
theorem s0_arg4 : after (hostOps0 (F := Ideal)) W (main_arg4 : DevRef τ sig) = W (main_arg4 : DevRef τ sig) := by after_results_simp

/-! ## The call of `where` -/

theorem s1_dis : after (hostOps0_1 (F := Ideal)) W (main_v14 : DevRef τ sig)
    = select (W (main_v12 : DevRef τ sig)) (W (main_v13 : DevRef τ sig))
        (broadcastInDim S100000 ![] Facts₀.bcast_S_S100000 (id (W (main_cst_2 : DevRef τ sig)))) := by
  after_results_simp; rfl
theorem s1_src : after (hostOps0_1 (F := Ideal)) W (main_v5 : DevRef τ sig) = W (main_v5 : DevRef τ sig) := by after_results_simp
theorem s1_dst : after (hostOps0_1 (F := Ideal)) W (main_v6 : DevRef τ sig) = W (main_v6 : DevRef τ sig) := by after_results_simp
theorem s1_arg0 : after (hostOps0_1 (F := Ideal)) W (main_arg0 : DevRef τ sig) = W (main_arg0 : DevRef τ sig) := by after_results_simp
theorem s1_arg1 : after (hostOps0_1 (F := Ideal)) W (main_arg1 : DevRef τ sig) = W (main_arg1 : DevRef τ sig) := by after_results_simp
theorem s1_arg2 : after (hostOps0_1 (F := Ideal)) W (main_arg2 : DevRef τ sig) = W (main_arg2 : DevRef τ sig) := by after_results_simp
theorem s1_arg3 : after (hostOps0_1 (F := Ideal)) W (main_arg3 : DevRef τ sig) = W (main_arg3 : DevRef τ sig) := by after_results_simp
theorem s1_arg4 : after (hostOps0_1 (F := Ideal)) W (main_arg4 : DevRef τ sig) = W (main_arg4 : DevRef τ sig) := by after_results_simp

/-! ## The edge weights -/

theorem s2_norm : after (hostOps0_2 (F := Ideal)) W (main_v29 : DevRef τ sig)
    = normOf (W (main_v5 : DevRef τ sig)) (W (main_v6 : DevRef τ sig)) (W (main_v14 : DevRef τ sig)) := by
  after_results_simp; rfl
theorem s2_src : after (hostOps0_2 (F := Ideal)) W (main_v5 : DevRef τ sig) = W (main_v5 : DevRef τ sig) := by after_results_simp
theorem s2_dst : after (hostOps0_2 (F := Ideal)) W (main_v6 : DevRef τ sig) = W (main_v6 : DevRef τ sig) := by after_results_simp
theorem s2_arg0 : after (hostOps0_2 (F := Ideal)) W (main_arg0 : DevRef τ sig) = W (main_arg0 : DevRef τ sig) := by after_results_simp
theorem s2_arg1 : after (hostOps0_2 (F := Ideal)) W (main_arg1 : DevRef τ sig) = W (main_arg1 : DevRef τ sig) := by after_results_simp
theorem s2_arg2 : after (hostOps0_2 (F := Ideal)) W (main_arg2 : DevRef τ sig) = W (main_arg2 : DevRef τ sig) := by after_results_simp
theorem s2_arg3 : after (hostOps0_2 (F := Ideal)) W (main_arg3 : DevRef τ sig) = W (main_arg3 : DevRef τ sig) := by after_results_simp
theorem s2_arg4 : after (hostOps0_2 (F := Ideal)) W (main_arg4 : DevRef τ sig) = W (main_arg4 : DevRef τ sig) := by after_results_simp

/-! ## The first layer's aggregation -/

theorem s3_agg : after (hostOps1 (F := Ideal)) W (main_v43 : DevRef τ sig)
    = agg64 (W (main_v5 : DevRef τ sig)) (W (main_v6 : DevRef τ sig)) (W (main_v29 : DevRef τ sig)) (W (main_v30 : DevRef τ sig)) := by
  after_results_simp; rfl
theorem s3_bias : after (hostOps1 (F := Ideal)) W (main_v44 : DevRef τ sig)
    = fun i => shapeCast S1x64 (W (main_arg2 : DevRef τ sig)) Facts₀.shapeCasts_S64_S1x64 i := by
  after_results_simp; rfl
theorem s3_src : after (hostOps1 (F := Ideal)) W (main_v5 : DevRef τ sig) = W (main_v5 : DevRef τ sig) := by after_results_simp
theorem s3_dst : after (hostOps1 (F := Ideal)) W (main_v6 : DevRef τ sig) = W (main_v6 : DevRef τ sig) := by after_results_simp
theorem s3_norm : after (hostOps1 (F := Ideal)) W (main_v29 : DevRef τ sig) = W (main_v29 : DevRef τ sig) := by after_results_simp
theorem s3_arg3 : after (hostOps1 (F := Ideal)) W (main_arg3 : DevRef τ sig) = W (main_arg3 : DevRef τ sig) := by after_results_simp
theorem s3_arg4 : after (hostOps1 (F := Ideal)) W (main_arg4 : DevRef τ sig) = W (main_arg4 : DevRef τ sig) := by after_results_simp

/-! ## The second layer's aggregation -/

theorem s4_agg : after (hostOps3 (F := Ideal)) W (main_v59 : DevRef τ sig)
    = agg4 (W (main_v5 : DevRef τ sig)) (W (main_v6 : DevRef τ sig)) (W (main_v29 : DevRef τ sig)) (W (main_v46 : DevRef τ sig)) := by
  after_results_simp; rfl
theorem s4_bias : after (hostOps3 (F := Ideal)) W (main_v60 : DevRef τ sig)
    = fun i => shapeCast S1x4 (W (main_arg4 : DevRef τ sig)) Facts₀.shapeCasts_S4_S1x4 i := by
  after_results_simp; rfl

end Cert.KernelIdeal.KStretch

end
-- ==== Proof.Spec.lean ====
/-
  The four dense stages of the two-layer graph convolution, each as ONE function of whole arrays, index by index, on the
  extended reals.

  * `mm L R` — a matrix product: entry (p, f) is the sum over k of L (p, k) · R (k, f).
  * `biasLrelu a b` — a row vector b added to every row of a, then the leaky rectifier with slope 0.01 (the binary
    value 0x3C23D70A): v where v ≥ 0, slope · v elsewhere.
  * `biasSoftmax a b` — a row vector b added to every row of a, then the softmax of each row of four entries: with
    v = a + b, m the row's maximum (a fold of max from -∞) and e = exp (v - m), the entry is e divided by the row's sum of e.
-/
import Idealize.ShloMosaic.Lib.ValueIdx
import Idealize.ShloMosaic.PureOps.Ideal

noncomputable section

namespace Cert.Spec

open Idealize.ShloMosaic Idealize.ShloMosaic.ValueIdx

/-- Entry (p, f) of a matrix product: the sum over the contracted coordinate. -/
def mmAt {M K N : Nat} (L : (⟨2, ![M, K]⟩ : Shape).Idx → EReal) (R : (⟨2, ![K, N]⟩ : Shape).Idx → EReal) (p : Fin M) (f : Fin N) : EReal :=
  ∑ k : Fin K, L (ix2 p k) * R (ix2 k f)

/-- The matrix product as an array. -/
def mm {M K N : Nat} (L : (⟨2, ![M, K]⟩ : Shape).Idx → EReal) (R : (⟨2, ![K, N]⟩ : Shape).Idx → EReal) :
    (⟨2, ![M, N]⟩ : Shape).Idx → EReal := fun j => mmAt L R (j 0) (j 1)

/-- The leaky rectifier of slope 0.01 (as its binary value) at one extended real. -/
def lrelu (v : EReal) : EReal :=
  Scalar.select (Ideal.cmp .oge v (Ideal.ofBits .f32 0x00000000#32)) v (Ideal.ofBits .f32 0x3C23D70A#32 * v)

/-- Bias, then the leaky rectifier, at entry (p, f). -/
def biasLreluAt {M N : Nat} (a : (⟨2, ![M, N]⟩ : Shape).Idx → EReal) (b : (⟨1, ![N]⟩ : Shape).Idx → EReal) (p : Fin M) (f : Fin N) : EReal :=
  lrelu (a (ix2 p f) + b (ix1 f))

/-- Bias, then the leaky rectifier, as an array. -/
def biasLrelu {M N : Nat} (a : (⟨2, ![M, N]⟩ : Shape).Idx → EReal) (b : (⟨1, ![N]⟩ : Shape).Idx → EReal) :
    (⟨2, ![M, N]⟩ : Shape).Idx → EReal := fun j => biasLreluAt a b (j 0) (j 1)

/-- The biased entry (p, q). -/
def biased {M N : Nat} (a : (⟨2, ![M, N]⟩ : Shape).Idx → EReal) (b : (⟨1, ![N]⟩ : Shape).Idx → EReal) (p : Fin M) (q : Fin N) : EReal :=
  a (ix2 p q) + b (ix1 q)

/-- The maximum of row p of the biased array: a fold of max from -∞ (the binary value 0xFF800000). -/
def rowMax {M N : Nat} (a : (⟨2, ![M, N]⟩ : Shape).Idx → EReal) (b : (⟨1, ![N]⟩ : Shape).Idx → EReal) (p : Fin M) : EReal :=
  (Finset.univ : Finset (Fin N)).fold max (Ideal.ofBits .f32 0xFF800000#32) (fun q => biased a b p q)

/-- exp (v - m) at entry (p, q). -/
def expShift {M N : Nat} (a : (⟨2, ![M, N]⟩ : Shape).Idx → EReal) (b : (⟨1, ![N]⟩ : Shape).Idx → EReal) (p : Fin M) (q : Fin N) : EReal :=
  Ideal.exp (biased a b p q - rowMax a b p)

/-- Bias, then the row softmax, at entry (p, f). -/
def biasSoftmaxAt {M N : Nat} (a : (⟨2, ![M, N]⟩ : Shape).Idx → EReal) (b : (⟨1, ![N]⟩ : Shape).Idx → EReal) (p : Fin M) (f : Fin N) : EReal :=
  Ideal.div (expShift a b p f) (∑ q : Fin N, expShift a b p q)

/-- Bias, then the row softmax, as an array. -/
def biasSoftmax {M N : Nat} (a : (⟨2, ![M, N]⟩ : Shape).Idx → EReal) (b : (⟨1, ![N]⟩ : Shape).Idx → EReal) :
    (⟨2, ![M, N]⟩ : Shape).Idx → EReal := fun j => biasSoftmaxAt a b (j 0) (j 1)

end Cert.Spec

end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.Reg0.lean ====
/-
  Region 0 of the kernel: the first layer's matrix product, block by block.

  The grid has 10 points. Point t reads rows 10000 t … 10000 t + 9999 of the left operand (all 128 columns) and the whole
  right operand, multiplies them, and writes the product back as rows 10000 t … 10000 t + 9999 of the output. At the exact
  values the matrix unit's product into a zero accumulator is, at entry (p, f), the sum over k of x (p, k) · w (k, f); the
  narrowing of the operands before the product is the identity. So each point writes block t of the matrix product of the
  whole arrays, the ten blocks cover every row (row r is in the block of point r / 10000), and the output array ends
  holding the product.
-/
import proofs.«155087_j42863773614285_2_alg».proof.Proof.Gen.KernelIdeal.Frame
import proofs.«155087_j42863773614285_2_alg».proof.Proof.Spec
import proofs.«155087_j42863773614285_2_alg».proof.Proof.LibDotRow
import Idealize.ShloMosaic.Lib.Pipeline.Value

noncomputable section

namespace Cert.KernelIdeal.Reg0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's product at an entry: the sum over the contracted coordinate of the loaded blocks' products. -/
theorem product_at (x0 : Vec Ideal S10000x128 .f32) (x1 : Vec Ideal S128x64 .f32) (j : S10000x64.Idx) :
    k0_pay1 (F := Ideal) x0 x1 j = ∑ k : Fin 128, x0 (ix2 (j 0) k) * x1 (ix2 k (j 1)) := by
  unfold k0_pay1
  refine (Ideal.matmul_constant_zero_apply dot_S10000x128_S128x64_S10000x64_1_0_0_1_n_n none _ _ j).trans ?_
  have hj : j = ix2 (n0 := 10000) (n1 := 64) (j 0) (j 1) := eq_ix2 j
  refine Eq.trans ?_ (DotRow.sum_contr (M := 10000) (K := 128) (N := 64) dot_S10000x128_S128x64_S10000x64_1_0_0_1_n_n rfl rfl rfl rfl
    (fun _ _ => rfl) (fun _ _ => rfl) x0 x1 (j 0) (j 1))
  exact congrArg (fun i : (⟨2, ![10000, 64]⟩ : Shape).Idx =>
    ∑ k : (dot_S10000x128_S128x64_S10000x64_1_0_0_1_n_n).contr.Idx,
      x0 ((dot_S10000x128_S128x64_S10000x64_1_0_0_1_n_n).lhsIdx i k) * x1 ((dot_S10000x128_S128x64_S10000x64_1_0_0_1_n_n).rhsIdx i k)) hj

/-- The three windows' block indices at every point: the left operand's and the output's row block is the point, the
    right operand's block is the whole array. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the matrix product of the whole arrays. -/
theorem block_written (c : Dev nD) (t : Fin cfg0.N) :
    (dat0 (F := Ideal) V c).flushed 2 t
      = ((cfg0.win 2).blk t).view.read (Elt Ideal) (Cert.Spec.mm (M := 100000) (K := 128) (N := 64) (V c main_arg0) (V c main_arg1)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨e0, e1, e2, e3, e4, e5⟩ := block_indices t
  funext j
  show k0_pay1 (F := Ideal) (iblk0 V c 0 t) (iblk0 V c 1 t) j
    = Cert.Spec.mm (M := 100000) (K := 128) (N := 64) (V c main_arg0) (V c main_arg1) (((cfg0.win 2).blk t).view.emb j)
  refine (product_at _ _ j).trans ?_
  show _ = Cert.Spec.mmAt (M := 100000) (K := 128) (N := 64) (V c main_arg0) (V c main_arg1)
    ((((cfg0.win 2).blk t).view.emb j) 0) ((((cfg0.win 2).blk t).view.emb j) 1)
  unfold Cert.Spec.mmAt
  refine Finset.sum_congr rfl fun k _ => ?_
  have hl : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  have hr : iblk0 V c 1 t (ix2 k (j 1)) = V c main_arg1 (ix2 k ((((cfg0.win 2).blk t).view.emb j) 1)) := by
    show V c main_arg1 (((cfg0.win 1).blk t).view.emb (ix2 k (j 1))) = _
    refine congrArg (V c main_arg1) (funext fun a => Fin.ext ?_)
    match a with
    | ⟨0, _⟩ =>
      show win0_1.index t (0 : Fin 2) * 128 + 1 * k.val = k.val
      omega
    | ⟨1, _⟩ =>
      show win0_1.index t (1 : Fin 2) * 64 + 1 * (j 1).val = win0_2.index t (1 : Fin 2) * 64 + 1 * (j 1).val
      omega
  rw [hl, hr]

/-- An index of the output array is in point t's block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every entry of the output array is written: row r is in the block of point r / 10000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by show (i 0).val / 10000 < 10; omega⟩, rfl⟩
  obtain ⟨e0, e1, e2, e3, e4, e5⟩ := block_indices t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The output array of region 0 ends holding the matrix product of the two arrays the region reads. -/
theorem arr (c : Dev nD) :
    (dat0 (F := Ideal) V c).arrAt 2 cfg0.N = Cert.Spec.mm (M := 100000) (K := 128) (N := 64) (V c main_arg0) (V c main_arg1) :=
  (dat0 (F := Ideal) V c).arrAt_eq_of_cover 2 _ (fun t _ => block_written V c t) covered

end Cert.KernelIdeal.Reg0

end
-- ==== Proof.Reg1.lean ====
/-
  The second stage of the kernel program (bias, then the leaky rectifier), from its blocks to the whole array: each of the
  ten grid points writes rows [10000 t, 10000 t + 10000) of the result, every entry the rectifier of the biased entry of
  the first operand at the same place; the ten row blocks tile the 100000 rows.
-/
import proofs.«155087_j42863773614285_2_alg».proof.Proof.Gen.KernelIdeal.Frame
import proofs.«155087_j42863773614285_2_alg».proof.Proof.Spec
import Idealize.ShloMosaic.Lib.Pipeline.Value
import Idealize.ShloMosaic.Lib.ValueLayout

noncomputable section

namespace Cert.KernelIdeal.Reg1

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

theorem zero_offsets : (![0, 0] : Fin 2 → Nat) = fun _ => 0 := funext fun a => by fin_cases a <;> rfl

/-- The stored block at (p, f): the rectifier of the loaded block's entry plus the bias row's entry f. -/
theorem stored_apply (x0 : Vec Ideal S10000x64 .f32) (x1 : Vec Ideal S1x64 .f32) (p : Fin 10000) (f : Fin 64) :
    k1_pay1 x0 x1 (ix2 p f) = Cert.Spec.lrelu (x0 (ix2 p f) + x1 (ix2 (0 : Fin 1) f)) := by
  unfold k1_pay1
  rw [shapeCast_self, shapeCast_self]
  simp only [select_apply, cmpf_apply, mulf_apply, addf_apply, broadcast_apply, broadcastTo_1b_ab_apply]
  rfl

/-- The stored block at (p, f) as the stage function of two whole arrays a and b at an index i, once the loaded entries
    are the arrays' entries at i. -/
theorem stored_eq_stage (a : S100000x64.Idx → EReal) (b : S1x64.Idx → EReal)
    (x0 : Vec Ideal S10000x64 .f32) (x1 : Vec Ideal S1x64 .f32) (p : Fin 10000) (f : Fin 64) (i : S100000x64.Idx)
    (h0 : x0 (ix2 p f) = a i) (h1 : x1 (ix2 (0 : Fin 1) f) = b (ix2 (0 : Fin 1) (i 1))) :
    k1_pay1 x0 x1 (ix2 p f)
      = Cert.Spec.biasLrelu (M := 100000) (N := 64) a (fun q => b (ix2 (0 : Fin 1) (q 0))) i := by
  rw [stored_apply, h0, h1]
  exact congrArg (fun z => Cert.Spec.lrelu (a z + b (ix2 (0 : Fin 1) (i 1)))) (eq_ix2 (n0 := 100000) (n1 := 64) i)

/-- The printed index maps over the grid: the first operand's block moves with the result's block, the bias row stays,
    and the result's block indices are t and 0. -/
theorem index_maps : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every row block is some point's. -/
theorem index_onto : ∀ q : Fin 10, ∃ t : Fin cfg1.N, win1_2.index t = ![q.val, 0] :=
  (by decide +kernel : ∀ q : Fin 10, ∃ t : Fin grid1.N, win1_2.index t = ![q.val, 0])

/-- What point t writes back is block t of the stage function of the two operand arrays. -/
theorem block_written (c : Dev nD) (t : Fin cfg1.N) :
    (dat1 (F := Ideal) V c).flushed 2 t = ((cfg1.win 2).blk t).view.read (Elt Ideal)
      (Cert.Spec.biasLrelu (M := 100000) (N := 64) (V c main_v43) (fun q => V c main_v44 (ix2 (0 : Fin 1) (q 0)))) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S1x64) zero_offsets]
  obtain ⟨e0, e1, e2, e3, e4, e5⟩ := index_maps t
  funext j
  show k1_pay1 (iblk1 V c 0 t) (iblk1 V c 1 t) j
    = Cert.Spec.biasLrelu (M := 100000) (N := 64) (V c main_v43) (fun q => V c main_v44 (ix2 (0 : Fin 1) (q 0))) (((cfg1.win 2).blk t).view.emb j)
  refine (congrArg (k1_pay1 (iblk1 V c 0 t) (iblk1 V c 1 t)) (eq_ix2 (n0 := 10000) (n1 := 64) j)).trans ?_
  refine stored_eq_stage (V c main_v43) (V c main_v44) (iblk1 V c 0 t) (iblk1 V c 1 t) (j 0) (j 1) (((cfg1.win 2).blk t).view.emb j) ?_ ?_
  · show V c main_v43 (((cfg1.win 0).blk t).view.emb (ix2 (j 0) (j 1))) = V c main_v43 (((cfg1.win 2).blk t).view.emb j)
    refine congrArg (V c main_v43) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · show V c main_v44 (((cfg1.win 1).blk t).view.emb (ix2 (0 : Fin 1) (j 1))) = V c main_v44 (ix2 (0 : Fin 1) ((((cfg1.win 2).blk t).view.emb j) 1))
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega

/-- An index of the array is in point t's block iff each coordinate is in the block's range on its axis. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every index is in the block of the point its row falls in: row r is in block r / 10000. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the region: the stage function of the two operand arrays as the region finds them. -/
theorem arr (c : Dev nD) :
    (dat1 (F := Ideal) V c).arrAt 2 cfg1.N = Cert.Spec.biasLrelu (M := 100000) (N := 64) (V c main_v43) (fun i => V c main_v44 (ix2 (0 : Fin 1) (i 0))) :=
  (dat1 (F := Ideal) V c).arrAt_eq_of_cover 2 _ (fun t _ => block_written V c t) (covered)

end Cert.KernelIdeal.Reg1

end
-- ==== Proof.Reg2.lean ====
/-
  Region 2 of the kernel: the second layer's matrix product, block by block.

  The grid has 10 points. Point t reads rows 10000 t … 10000 t + 9999 of the left operand (all 64 columns) and the whole
  right operand, multiplies them, and writes the product back as rows 10000 t … 10000 t + 9999 of the output. At the exact
  values the matrix unit's product into a zero accumulator is, at entry (p, f), the sum over k of h (p, k) · w (k, f); the
  reshaping of the left block to its own shape and the narrowing of the operands before the product are the identity. So
  each point writes block t of the matrix product of the whole arrays, the ten blocks cover every row (row r is in the
  block of point r / 10000), and the output array ends holding the product.
-/
import proofs.«155087_j42863773614285_2_alg».proof.Proof.Gen.KernelIdeal.Frame
import proofs.«155087_j42863773614285_2_alg».proof.Proof.Spec
import proofs.«155087_j42863773614285_2_alg».proof.Proof.LibDotRow
import Idealize.ShloMosaic.Lib.Pipeline.Value

noncomputable section

namespace Cert.KernelIdeal.Reg2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's product at an entry: the sum over the contracted coordinate of the loaded blocks' products. -/
theorem product_at (x0 : Vec Ideal S10000x64 .f32) (x1 : Vec Ideal S64x4 .f32) (j : S10000x4.Idx) :
    k2_pay1 (F := Ideal) x0 x1 j = ∑ k : Fin 64, x0 (ix2 (j 0) k) * x1 (ix2 k (j 1)) := by
  unfold k2_pay1
  simp only [shapeCast_self]
  refine (Ideal.matmul_constant_zero_apply dot_S10000x64_S64x4_S10000x4_1_0_0_1_n_n none _ _ j).trans ?_
  have hj : j = ix2 (n0 := 10000) (n1 := 4) (j 0) (j 1) := eq_ix2 j
  refine Eq.trans ?_ (DotRow.sum_contr (M := 10000) (K := 64) (N := 4) dot_S10000x64_S64x4_S10000x4_1_0_0_1_n_n rfl rfl rfl rfl
    (fun _ _ => rfl) (fun _ _ => rfl) x0 x1 (j 0) (j 1))
  exact congrArg (fun i : (⟨2, ![10000, 4]⟩ : Shape).Idx =>
    ∑ k : (dot_S10000x64_S64x4_S10000x4_1_0_0_1_n_n).contr.Idx,
      x0 ((dot_S10000x64_S64x4_S10000x4_1_0_0_1_n_n).lhsIdx i k) * x1 ((dot_S10000x64_S64x4_S10000x4_1_0_0_1_n_n).rhsIdx i k)) hj

/-- The three windows' block indices at every point: the left operand's and the output's row block is the point, the
    right operand's block is the whole array. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the matrix product of the whole arrays. -/
theorem block_written (c : Dev nD) (t : Fin cfg2.N) :
    (dat2 (F := Ideal) V c).flushed 2 t
      = ((cfg2.win 2).blk t).view.read (Elt Ideal) (Cert.Spec.mm (M := 100000) (K := 64) (N := 4) (V c main_v45) (V c main_arg3)) := by
  show (cfg2.win 2).cut (grid2.coords t) ((dat2 V c).after 2 t) = _
  rw [after2_2]
  unfold out2_2
  rw [View.canon_unit_zero zero_offsets]
  simp only [View.ld_unit_zero (S := S10000x64) zero_offsets, View.ld_unit_zero (S := S64x4) zero_offsets]
  obtain ⟨e0, e1, e2, e3, e4, e5⟩ := block_indices t
  funext j
  show k2_pay1 (F := Ideal) (iblk2 V c 0 t) (iblk2 V c 1 t) j
    = Cert.Spec.mm (M := 100000) (K := 64) (N := 4) (V c main_v45) (V c main_arg3) (((cfg2.win 2).blk t).view.emb j)
  refine (product_at _ _ j).trans ?_
  show _ = Cert.Spec.mmAt (M := 100000) (K := 64) (N := 4) (V c main_v45) (V c main_arg3)
    ((((cfg2.win 2).blk t).view.emb j) 0) ((((cfg2.win 2).blk t).view.emb j) 1)
  unfold Cert.Spec.mmAt
  refine Finset.sum_congr rfl fun k _ => ?_
  have hl : iblk2 V c 0 t (ix2 (j 0) k) = V c main_v45 (ix2 ((((cfg2.win 2).blk t).view.emb j) 0) k) := by
    show V c main_v45 (((cfg2.win 0).blk t).view.emb (ix2 (j 0) k)) = _
    refine congrArg (V c main_v45) (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 64 + 1 * k.val = k.val
      omega
  have hr : iblk2 V c 1 t (ix2 k (j 1)) = V c main_arg3 (ix2 k ((((cfg2.win 2).blk t).view.emb j) 1)) := by
    show V c main_arg3 (((cfg2.win 1).blk t).view.emb (ix2 k (j 1))) = _
    refine congrArg (V c main_arg3) (funext fun a => Fin.ext ?_)
    match a with
    | ⟨0, _⟩ =>
      show win2_1.index t (0 : Fin 2) * 64 + 1 * k.val = k.val
      omega
    | ⟨1, _⟩ =>
      show win2_1.index t (1 : Fin 2) * 4 + 1 * (j 1).val = win2_2.index t (1 : Fin 2) * 4 + 1 * (j 1).val
      omega
  rw [hl, hr]

/-- An index of the output array is in point t's block iff each coordinate is in the block's range on its axis. -/
theorem mem_block (t : Fin cfg2.N) (i : S100000x4.Idx) :
    i ∈ ((cfg2.win 2).blk t).view.set ↔ ∀ a : Fin 2, win2_2.index t a * S10000x4.size a ≤ (i a).val ∧ (i a).val < win2_2.index t a * S10000x4.size a + S10000x4.size a := by
  show i ∈ ((View.whole main_v46).slice (win2_2.rect t)).set ↔ _
  rw [View.set_slice_whole, Rect.mem_set_unit]
  exact Iff.rfl

/-- Every entry of the output array is written: row r is in the block of point r / 10000. -/
theorem covered (i : S100000x4.Idx) :
    ∃ t : Fin cfg2.N, (cfg2.win 2).flush t = true ∧ i ∈ ((cfg2.win 2).blk t).view.set := by
  have hi0 : (i 0).val < 100000 := (i 0).isLt
  have hi1 : (i 1).val < 4 := (i 1).isLt
  obtain ⟨t, ht⟩ : ∃ t : Fin cfg2.N, t.val = (i 0).val / 10000 :=
    ⟨⟨(i 0).val / 10000, by show (i 0).val / 10000 < 10; omega⟩, rfl⟩
  obtain ⟨e0, e1, e2, e3, e4, e5⟩ := block_indices t
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 4 ≤ (i 1).val ∧ (i 1).val < win2_2.index t (1 : Fin 2) * 4 + 4
    omega

/-- The output array of region 2 ends holding the matrix product of the two arrays the region reads. -/
theorem arr (c : Dev nD) :
    (dat2 (F := Ideal) V c).arrAt 2 cfg2.N = Cert.Spec.mm (M := 100000) (K := 64) (N := 4) (V c main_v45) (V c main_arg3) :=
  (dat2 (F := Ideal) V c).arrAt_eq_of_cover 2 _ (fun t _ => block_written V c t) covered

end Cert.KernelIdeal.Reg2

end
-- ==== Proof.LibColumnCast.lean ====
/-
  A vector `[a]` reshaped to a column `[a, 1]` reads, at `(i, u)`, the vector at `i`.
-/
import Idealize.ShloMosaic.Lib.ValueLayout
import Idealize.ShloMosaic.Lib.Pipeline.Value

namespace Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibColumnBroadcast.lean ====
/-
  Column broadcasts read at an index, beside the library's row broadcast: a `[a, 1]` array broadcast to `[a, b]` reads, at `(p, c)`,
  the operand's one column at row `p`.
-/
import Idealize.ShloMosaic.Lib.ValueLayout
import Idealize.ShloMosaic.Lib.Pipeline.Value

namespace Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Reg3.lean ====
/-
  The fourth stage of the kernel program (bias, then the softmax of each row of four), from its blocks to the whole array:
  each of the ten grid points writes rows [10000 t, 10000 t + 10000) of the result; a row of a block is a row of the
  array, so the row's maximum and the row's sum of exponentials are the array's; the ten row blocks tile the 100000 rows.
-/
import proofs.«155087_j42863773614285_2_alg».proof.Proof.Gen.KernelIdeal.Frame
import proofs.«155087_j42863773614285_2_alg».proof.Proof.Spec
import proofs.«155087_j42863773614285_2_alg».proof.Proof.LibColumnCast
import proofs.«155087_j42863773614285_2_alg».proof.Proof.LibColumnBroadcast
import Idealize.ShloMosaic.Lib.Pipeline.Value
import Idealize.ShloMosaic.Lib.ValueLayout
import Idealize.ShloMosaic.PureOps.Ideal.Laws

noncomputable section

namespace Cert.KernelIdeal.Reg3

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

theorem zero_offsets : (![0, 0] : Fin 2 → Nat) = fun _ => 0 := funext fun a => by fin_cases a <;> rfl

/-! ## The stored block, stage by stage -/

/-- The biased block: the bias row added to every row. -/
def biasedBlock (x0 : FVec Ideal S10000x4 .f32) (x1 : FVec Ideal S1x4 .f32) : FVec Ideal S10000x4 .f32 :=
  addf x0 (broadcastTo S10000x4 x1 broadcasts_S1x4_S10000x4)

/-- A [10000] vector as a column over the four lanes. -/
def laneColumn (r : FVec Ideal S10000 .f32) : FVec Ideal S10000x4 .f32 :=
  broadcastTo S10000x4 (shapeCast S10000x1 r shapeCasts_S10000_S10000x1) broadcasts_S10000x1_S10000x4

/-- The rows' maxima: the reduction of max from -∞ over the lanes. -/
def rowMaxima (v : FVec Ideal S10000x4 .f32) : FVec Ideal S10000 .f32 :=
  multiReduction .maximumf [1] S10000 v 0xFF800000#32 reduces_S10000x4_S10000 (.inl rfl) rfl

/-- exp (v - row maximum). -/
def expShiftBlock (v : FVec Ideal S10000x4 .f32) : FVec Ideal S10000x4 .f32 :=
  exp (subf v (laneColumn (rowMaxima v)))

/-- The rows' sums: the reduction of add from zero over the lanes. -/
def rowSums (e : FVec Ideal S10000x4 .f32) : FVec Ideal S10000 .f32 :=
  multiReduction .add [1] S10000 e 0x00000000#32 reduces_S10000x4_S10000 (.inl rfl) rfl

/-- Each entry divided by its row's sum. -/
def normalizedBlock (e : FVec Ideal S10000x4 .f32) : FVec Ideal S10000x4 .f32 :=
  divf e (laneColumn (rowSums e))

/-- The stored block is the composition of the stages. -/
theorem stored_eq (x0 : Vec Ideal S10000x4 .f32) (x1 : Vec Ideal S1x4 .f32) :
    k3_pay1 x0 x1 = normalizedBlock (expShiftBlock (biasedBlock x0 x1)) := by
  unfold k3_pay1
  rw [shapeCast_self, shapeCast_self]
  rfl

/-- The index (p) with lane q inserted is (p, q). -/
theorem lift_lane (p : Fin 10000) (q : Fin 4) : reduces_S10000x4_S10000.lift (ix1 p) q = ix2 p q := by
  funext a
  apply Fin.ext
  match a with
  | ⟨0, _⟩ => rfl
  | ⟨1, _⟩ => rfl

theorem biasedBlock_apply (x0 : FVec Ideal S10000x4 .f32) (x1 : FVec Ideal S1x4 .f32) (p : Fin 10000) (q : Fin 4) :
    biasedBlock x0 x1 (ix2 p q) = x0 (ix2 p q) + x1 (ix2 (0 : Fin 1) q) := by
  unfold biasedBlock
  rw [addf_apply, broadcastTo_1b_ab_apply]

theorem laneColumn_apply (r : FVec Ideal S10000 .f32) (p : Fin 10000) (q : Fin 4) : laneColumn r (ix2 p q) = r (ix1 p) := by
  unfold laneColumn
  refine (broadcastTo_a1_ab_apply _ broadcasts_S10000x1_S10000x4 p q).trans ?_
  exact shapeCast_a_a1_apply r shapeCasts_S10000_S10000x1 p (0 : Fin 1)

theorem rowMaxima_apply (v : FVec Ideal S10000x4 .f32) (p : Fin 10000) :
    rowMaxima v (ix1 p) = (Finset.univ : Finset (Fin 4)).fold max (Ideal.ofBits .f32 0xFF800000#32) (fun q => v (ix2 p q)) := by
  unfold rowMaxima
  refine (Ideal.multiReduction_maximumf_single v 0xFF800000#32 reduces_S10000x4_S10000 (.inl rfl) rfl (ix1 p)).trans ?_
  exact congrArg (fun g : Fin 4 → EReal => (Finset.univ : Finset (Fin 4)).fold max (Ideal.ofBits .f32 0xFF800000#32) g)
    (funext fun q => congrArg v (lift_lane p q))

theorem rowSums_apply (e : FVec Ideal S10000x4 .f32) (p : Fin 10000) : rowSums e (ix1 p) = ∑ q : Fin 4, e (ix2 p q) := by
  unfold rowSums
  refine (Ideal.multiReduction_add_single e 0x00000000#32 reduces_S10000x4_S10000 (.inl rfl) rfl (ix1 p)).trans ?_
  exact Finset.sum_congr rfl fun q _ => congrArg e (lift_lane p q)

theorem expShiftBlock_apply (v : FVec Ideal S10000x4 .f32) (p : Fin 10000) (q : Fin 4) :
    expShiftBlock v (ix2 p q) = Ideal.exp (v (ix2 p q) - rowMaxima v (ix1 p)) := by
  unfold expShiftBlock
  show Ideal.exp (subf v (laneColumn (rowMaxima v)) (ix2 p q)) = _
  rw [subf_apply, laneColumn_apply]

theorem normalizedBlock_apply (e : FVec Ideal S10000x4 .f32) (p : Fin 10000) (f : Fin 4) :
    normalizedBlock e (ix2 p f) = Ideal.div (e (ix2 p f)) (∑ q : Fin 4, e (ix2 p q)) := by
  unfold normalizedBlock
  rw [divf_apply, laneColumn_apply, rowSums_apply]

/-- The stored block at (p, f) is the stage function of two whole arrays a and b at (r, f), once row p of the loaded block
    is row r of a and the loaded bias row is b's. -/
theorem stored_eq_stage (a : S100000x4.Idx → EReal) (b : S1x4.Idx → EReal)
    (x0 : Vec Ideal S10000x4 .f32) (x1 : Vec Ideal S1x4 .f32) (p : Fin 10000) (f : Fin 4) (r : Fin 100000)
    (h0 : ∀ q : Fin 4, x0 (ix2 p q) = a (ix2 r q)) (h1 : ∀ q : Fin 4, x1 (ix2 (0 : Fin 1) q) = b (ix2 (0 : Fin 1) q)) :
    k3_pay1 x0 x1 (ix2 p f)
      = Cert.Spec.biasSoftmaxAt (M := 100000) (N := 4) a (fun q => b (ix2 (0 : Fin 1) (q 0))) r f := by
  have hb : ∀ q : Fin 4, biasedBlock x0 x1 (ix2 p q) = Cert.Spec.biased (M := 100000) (N := 4) a (fun q => b (ix2 (0 : Fin 1) (q 0))) r q := by
    intro q
    rw [biasedBlock_apply, h0, h1]
    rfl
  have he : ∀ q : Fin 4, expShiftBlock (biasedBlock x0 x1) (ix2 p q) = Cert.Spec.expShift (M := 100000) (N := 4) a (fun q => b (ix2 (0 : Fin 1) (q 0))) r q := by
    intro q
    rw [expShiftBlock_apply, rowMaxima_apply]
    unfold Cert.Spec.expShift Cert.Spec.rowMax
    simp only [hb]
  rw [stored_eq, normalizedBlock_apply]
  unfold Cert.Spec.biasSoftmaxAt
  simp only [he]

/-! ## From blocks to the array -/

/-- The printed index maps over the grid: the first operand's block moves with the result's block, the bias row stays,
    and the result's block indices are t and 0. -/
theorem index_maps : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every row block is some point's. -/
theorem index_onto : ∀ q : Fin 10, ∃ t : Fin cfg3.N, win3_2.index t = ![q.val, 0] :=
  (by decide +kernel : ∀ q : Fin 10, ∃ t : Fin grid3.N, win3_2.index t = ![q.val, 0])

/-- What point t writes back is block t of the stage function of the two operand arrays. -/
theorem block_written (c : Dev nD) (t : Fin cfg3.N) :
    (dat3 (F := Ideal) V c).flushed 2 t = ((cfg3.win 2).blk t).view.read (Elt Ideal)
      (Cert.Spec.biasSoftmax (M := 100000) (N := 4) (V c main_v59) (fun q => V c main_v60 (ix2 (0 : Fin 1) (q 0)))) := by
  show (cfg3.win 2).cut (grid3.coords t) ((dat3 V c).after 2 t) = _
  rw [after3_2]
  unfold out3_2
  rw [View.canon_unit_zero zero_offsets]
  simp only [View.ld_unit_zero (S := S10000x4) zero_offsets, View.ld_unit_zero (S := S1x4) zero_offsets]
  obtain ⟨e0, e1, e2, e3, e4, e5⟩ := index_maps t
  funext j
  show k3_pay1 (iblk3 V c 0 t) (iblk3 V c 1 t) j
    = Cert.Spec.biasSoftmaxAt (M := 100000) (N := 4) (V c main_v59) (fun q => V c main_v60 (ix2 (0 : Fin 1) (q 0)))
        ((((cfg3.win 2).blk t).view.emb j) 0) ((((cfg3.win 2).blk t).view.emb j) 1)
  have hlane : ((((cfg3.win 2).blk t).view.emb j) 1 : Fin 4) = j 1 := by
    apply Fin.ext
    show win3_2.index t (1 : Fin 2) * 4 + 1 * (j 1).val = (j 1).val
    omega
  rw [hlane]
  refine (congrArg (k3_pay1 (iblk3 V c 0 t) (iblk3 V c 1 t)) (eq_ix2 (n0 := 10000) (n1 := 4) j)).trans ?_
  refine stored_eq_stage (V c main_v59) (V c main_v60) (iblk3 V c 0 t) (iblk3 V c 1 t) (j 0) (j 1) ((((cfg3.win 2).blk t).view.emb j) 0) ?_ ?_
  · intro q
    show V c main_v59 (((cfg3.win 0).blk t).view.emb (ix2 (j 0) q)) = V c main_v59 (ix2 ((((cfg3.win 2).blk t).view.emb j) 0) q)
    refine congrArg (V c main_v59) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 4 + 1 * q.val = q.val; omega
  · intro q
    show V c main_v60 (((cfg3.win 1).blk t).view.emb (ix2 (0 : Fin 1) q)) = V c main_v60 (ix2 (0 : Fin 1) q)
    refine congrArg (V c main_v60) (funext fun a => Fin.ext ?_)
    match a with
    | ⟨0, _⟩ => show win3_1.index t (0 : Fin 2) * 1 + 1 * 0 = 0; omega
    | ⟨1, _⟩ => show win3_1.index t (1 : Fin 2) * 4 + 1 * q.val = q.val; omega

/-- An index of the array is in point t's block iff each coordinate is in the block's range on its axis. -/
theorem mem_block (t : Fin cfg3.N) (i : S100000x4.Idx) :
    i ∈ ((cfg3.win 2).blk t).view.set ↔ ∀ a : Fin 2, win3_2.index t a * S10000x4.size a ≤ (i a).val ∧ (i a).val < win3_2.index t a * S10000x4.size a + S10000x4.size a := by
  show i ∈ ((View.whole main_v61).slice (win3_2.rect t)).set ↔ _
  rw [View.set_slice_whole, Rect.mem_set_unit]
  exact Iff.rfl

/-- Every index is in the block of the point its row falls in: row r is in block r / 10000. -/
theorem covered (i : S100000x4.Idx) :
    ∃ t : Fin cfg3.N, (cfg3.win 2).flush t = true ∧ i ∈ ((cfg3.win 2).blk t).view.set := by
  have hi0 : (i 0).val < 100000 := (i 0).isLt
  have hi1 : (i 1).val < 4 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 4 ≤ (i 1).val ∧ (i 1).val < win3_2.index t (1 : Fin 2) * 4 + 4; omega

/-- The result array after the region: the stage function of the two operand arrays as the region finds them. -/
theorem arr (c : Dev nD) :
    (dat3 (F := Ideal) V c).arrAt 2 cfg3.N = Cert.Spec.biasSoftmax (M := 100000) (N := 4) (V c main_v59) (fun i => V c main_v60 (ix2 (0 : Fin 1) (i 0))) :=
  (dat3 (F := Ideal) V c).arrAt_eq_of_cover 2 _ (fun t _ => block_written V c t) (covered)

end Cert.KernelIdeal.Reg3

end
-- ==== Proof.Out.lean ====
/-
  The function both programs compute, from the six argument arrays: with src, dst the edge lists (self loops appended) and
  norm the symmetric edge weights, out = biasSoftmax (agg4 (mm (biasLrelu (agg64 (mm x W1)) b1) W2)) b2 — two rounds of
  "multiply by the weight matrix, gather the rows at src, scale by norm, scatter-add at dst, add the bias", the leaky
  rectifier after the first round, the row softmax after the second. The dense stages are the index-by-index functions of
  the specification; the sparse stages are the shared host operations.
-/
import proofs.«155087_j42863773614285_2_alg».proof.Proof.Spec
import proofs.«155087_j42863773614285_2_alg».proof.Proof.Chain

noncomputable section

namespace Cert.Out

open Cert.ReferenceIdeal Cert.ReferenceIdeal.Chain Idealize.ShloMosaic

/-- The symmetric edge weights from the edge array. -/
def norm (e : EdgeArr) : FVec Ideal S3300000 .f32 := normOf (srcOf e) (dstOf e) (disOf (degOf (dstOf e)))

/-- The first layer after its rectifier. -/
def hidden (x : FVec Ideal S100000x128 .f32) (w1 : FVec Ideal S128x64 .f32) (b1 : FVec Ideal S64 .f32) (e : EdgeArr) :
    FVec Ideal S100000x64 .f32 :=
  Cert.Spec.biasLrelu (M := 100000) (N := 64) (agg64 (srcOf e) (dstOf e) (norm e) (Cert.Spec.mm (M := 100000) (K := 128) (N := 64) x w1)) b1

/-- The result. -/
def out (x : FVec Ideal S100000x128 .f32) (w1 : FVec Ideal S128x64 .f32) (b1 : FVec Ideal S64 .f32)
    (w2 : FVec Ideal S64x4 .f32) (b2 : FVec Ideal S4 .f32) (e : EdgeArr) : FVec Ideal S100000x4 .f32 :=
  Cert.Spec.biasSoftmax (M := 100000) (N := 4)
    (agg4 (srcOf e) (dstOf e) (norm e) (Cert.Spec.mm (M := 100000) (K := 64) (N := 4) (hidden x w1 b1 e) w2)) b2

end Cert.Out

end
-- ==== Proof.KValue.lean ====
/-
  The idealized kernel's result array as ONE function of its six argument arrays. The run's buffer contents at its nine
  boundaries (before and after each host stretch and each region) are read in order: the edge lists, the edge weights and
  the arguments are carried unchanged across every stretch and region that does not write them; each region's output array
  is its stage function of its input arrays; each aggregation is the shared gather–scale–scatter of what the region before
  it wrote. The last region's output is `out`.
-/
import proofs.«155087_j42863773614285_2_alg».proof.Proof.Gen.KernelIdeal.Frame
import proofs.«155087_j42863773614285_2_alg».proof.Proof.KStretch
import proofs.«155087_j42863773614285_2_alg».proof.Proof.Reg0
import proofs.«155087_j42863773614285_2_alg».proof.Proof.Reg1
import proofs.«155087_j42863773614285_2_alg».proof.Proof.Reg2
import proofs.«155087_j42863773614285_2_alg».proof.Proof.Reg3
import proofs.«155087_j42863773614285_2_alg».proof.Proof.Out
import Idealize.ShloMosaic.Lib.ValueLayout

set_option maxRecDepth 16384

noncomputable section

namespace Cert.KernelIdeal.KValue

open Cert.KernelIdeal Cert.KernelIdeal.Gen Cert.KernelIdeal.KStretch
open Idealize.ShloMosaic Idealize.ShloMosaic.TcCoe Idealize.ShloMosaic.ValueIdx Idealize.SL.Sem
open Cert.ReferenceIdeal.Chain (srcOf dstOf degOf disOf normOf agg64 agg4)

variable (m : (ℓ : Loc nD τ sig) → Buf (Elt Ideal) ℓ) (ρ : Dev nD → PrngReg) (c : Dev nD)

/-! ## Up to the first region: the edge lists, the weights, and the arguments as launched -/

theorem w1_src : W1 m ρ c (main_v5 : DevRef τ sig) = srcOf (m ((c.tc : Thread nD τ).loc main_arg5)) := s0_src (W0 m ρ c)
theorem w1_dst : W1 m ρ c (main_v6 : DevRef τ sig) = dstOf (m ((c.tc : Thread nD τ).loc main_arg5)) := s0_dst (W0 m ρ c)
theorem w2_src : W2 m ρ c (main_v5 : DevRef τ sig) = srcOf (m ((c.tc : Thread nD τ).loc main_arg5)) := (s1_src (W1 m ρ c)).trans (w1_src m ρ c)
theorem w2_dst : W2 m ρ c (main_v6 : DevRef τ sig) = dstOf (m ((c.tc : Thread nD τ).loc main_arg5)) := (s1_dst (W1 m ρ c)).trans (w1_dst m ρ c)

/-- The normalisation vector: rsqrt of the degree where it is positive, else zero. -/
theorem w2_dis : W2 m ρ c (main_v14 : DevRef τ sig) = disOf (degOf (dstOf (m ((c.tc : Thread nD τ).loc main_arg5)))) := by
  refine (s1_dis (W1 m ρ c)).trans ?_
  have h12 : W1 m ρ c (main_v12 : DevRef τ sig) = _ := s0_gt (W0 m ρ c)
  have h13 : W1 m ρ c (main_v13 : DevRef τ sig) = _ := s0_rsqrt (W0 m ρ c)
  have hz : W1 m ρ c (main_cst_2 : DevRef τ sig) = _ := s0_zero (W0 m ρ c)
  rw [h12, h13, hz]
  rfl

theorem w3_src : W3 m ρ c (main_v5 : DevRef τ sig) = srcOf (m ((c.tc : Thread nD τ).loc main_arg5)) := (s2_src (W2 m ρ c)).trans (w2_src m ρ c)
theorem w3_dst : W3 m ρ c (main_v6 : DevRef τ sig) = dstOf (m ((c.tc : Thread nD τ).loc main_arg5)) := (s2_dst (W2 m ρ c)).trans (w2_dst m ρ c)
theorem w3_norm : W3 m ρ c (main_v29 : DevRef τ sig) = Cert.Out.norm (m ((c.tc : Thread nD τ).loc main_arg5)) := by
  refine (s2_norm (W2 m ρ c)).trans ?_
  rw [w2_src m ρ c, w2_dst m ρ c, w2_dis m ρ c]
  rfl
theorem w3_arg0 : W3 m ρ c (main_arg0 : DevRef τ sig) = (m ((c.tc : Thread nD τ).loc main_arg0)) :=
  (s2_arg0 (W2 m ρ c)).trans ((s1_arg0 (W1 m ρ c)).trans (s0_arg0 (W0 m ρ c)))
theorem w3_arg1 : W3 m ρ c (main_arg1 : DevRef τ sig) = (m ((c.tc : Thread nD τ).loc main_arg1)) :=
  (s2_arg1 (W2 m ρ c)).trans ((s1_arg1 (W1 m ρ c)).trans (s0_arg1 (W0 m ρ c)))
theorem w3_arg2 : W3 m ρ c (main_arg2 : DevRef τ sig) = (m ((c.tc : Thread nD τ).loc main_arg2)) :=
  (s2_arg2 (W2 m ρ c)).trans ((s1_arg2 (W1 m ρ c)).trans (s0_arg2 (W0 m ρ c)))
theorem w3_arg3 : W3 m ρ c (main_arg3 : DevRef τ sig) = (m ((c.tc : Thread nD τ).loc main_arg3)) :=
  (s2_arg3 (W2 m ρ c)).trans ((s1_arg3 (W1 m ρ c)).trans (s0_arg3 (W0 m ρ c)))
theorem w3_arg4 : W3 m ρ c (main_arg4 : DevRef τ sig) = (m ((c.tc : Thread nD τ).loc main_arg4)) :=
  (s2_arg4 (W2 m ρ c)).trans ((s1_arg4 (W1 m ρ c)).trans (s0_arg4 (W0 m ρ c)))

/-! ## The first region: x · W1 -/

theorem w4_prod : W4 m ρ c (main_v30 : DevRef τ sig) = Cert.Spec.mm (M := 100000) (K := 128) (N := 64) (m ((c.tc : Thread nD τ).loc main_arg0)) (m ((c.tc : Thread nD τ).loc main_arg1)) :=
  (W4_arr m ρ c 2).trans ((Cert.KernelIdeal.Reg0.arr (V3 m ρ) c).trans
    (congrArg₂ (Cert.Spec.mm (M := 100000) (K := 128) (N := 64)) (w3_arg0 m ρ c) (w3_arg1 m ρ c)))
theorem w4_src : W4 m ρ c (main_v5 : DevRef τ sig) = srcOf (m ((c.tc : Thread nD τ).loc main_arg5)) := (W4_of_ne m ρ c main_v5 (by decide)).trans (w3_src m ρ c)
theorem w4_dst : W4 m ρ c (main_v6 : DevRef τ sig) = dstOf (m ((c.tc : Thread nD τ).loc main_arg5)) := (W4_of_ne m ρ c main_v6 (by decide)).trans (w3_dst m ρ c)
theorem w4_norm : W4 m ρ c (main_v29 : DevRef τ sig) = Cert.Out.norm (m ((c.tc : Thread nD τ).loc main_arg5)) := (W4_of_ne m ρ c main_v29 (by decide)).trans (w3_norm m ρ c)
theorem w4_arg2 : W4 m ρ c (main_arg2 : DevRef τ sig) = (m ((c.tc : Thread nD τ).loc main_arg2)) := (W4_of_ne m ρ c main_arg2 (by decide)).trans (w3_arg2 m ρ c)
theorem w4_arg3 : W4 m ρ c (main_arg3 : DevRef τ sig) = (m ((c.tc : Thread nD τ).loc main_arg3)) := (W4_of_ne m ρ c main_arg3 (by decide)).trans (w3_arg3 m ρ c)
theorem w4_arg4 : W4 m ρ c (main_arg4 : DevRef τ sig) = (m ((c.tc : Thread nD τ).loc main_arg4)) := (W4_of_ne m ρ c main_arg4 (by decide)).trans (w3_arg4 m ρ c)

/-! ## The first aggregation and the first bias as a row -/

theorem w5_agg : W5 m ρ c (main_v43 : DevRef τ sig)
    = agg64 (srcOf (m ((c.tc : Thread nD τ).loc main_arg5))) (dstOf (m ((c.tc : Thread nD τ).loc main_arg5))) (Cert.Out.norm (m ((c.tc : Thread nD τ).loc main_arg5))) (Cert.Spec.mm (M := 100000) (K := 128) (N := 64) (m ((c.tc : Thread nD τ).loc main_arg0)) (m ((c.tc : Thread nD τ).loc main_arg1))) := by
  refine (s3_agg (W4 m ρ c)).trans ?_
  rw [w4_src m ρ c, w4_dst m ρ c, w4_norm m ρ c, w4_prod m ρ c]
theorem w5_bias : W5 m ρ c (main_v44 : DevRef τ sig) = fun i => shapeCast S1x64 (m ((c.tc : Thread nD τ).loc main_arg2)) Facts₀.shapeCasts_S64_S1x64 i := by
  refine (s3_bias (W4 m ρ c)).trans ?_
  rw [w4_arg2 m ρ c]
theorem w5_src : W5 m ρ c (main_v5 : DevRef τ sig) = srcOf (m ((c.tc : Thread nD τ).loc main_arg5)) := (s3_src (W4 m ρ c)).trans (w4_src m ρ c)
theorem w5_dst : W5 m ρ c (main_v6 : DevRef τ sig) = dstOf (m ((c.tc : Thread nD τ).loc main_arg5)) := (s3_dst (W4 m ρ c)).trans (w4_dst m ρ c)
theorem w5_norm : W5 m ρ c (main_v29 : DevRef τ sig) = Cert.Out.norm (m ((c.tc : Thread nD τ).loc main_arg5)) := (s3_norm (W4 m ρ c)).trans (w4_norm m ρ c)
theorem w5_arg3 : W5 m ρ c (main_arg3 : DevRef τ sig) = (m ((c.tc : Thread nD τ).loc main_arg3)) := (s3_arg3 (W4 m ρ c)).trans (w4_arg3 m ρ c)
theorem w5_arg4 : W5 m ρ c (main_arg4 : DevRef τ sig) = (m ((c.tc : Thread nD τ).loc main_arg4)) := (s3_arg4 (W4 m ρ c)).trans (w4_arg4 m ρ c)

/-! ## The second region: bias and the leaky rectifier -/

theorem w6_hidden : W6 m ρ c (main_v45 : DevRef τ sig) = Cert.Out.hidden (m ((c.tc : Thread nD τ).loc main_arg0)) (m ((c.tc : Thread nD τ).loc main_arg1)) (m ((c.tc : Thread nD τ).loc main_arg2)) (m ((c.tc : Thread nD τ).loc main_arg5)) := by
  refine (W6_arr m ρ c 2).trans ((Cert.KernelIdeal.Reg1.arr (V5 m ρ) c).trans ?_)
  have hb : (fun i : (⟨1, ![64]⟩ : Shape).Idx => V5 m ρ c main_v44 (ix2 (0 : Fin 1) (i 0))) = (m ((c.tc : Thread nD τ).loc main_arg2)) := by
    funext i
    have h := congrFun (w5_bias m ρ c) (ix2 (0 : Fin 1) (i 0))
    exact h.trans ((shapeCast_a_1a_apply _ _ 0 (i 0)).trans (congrArg _ (eq_ix1 i).symm))
  have ha : V5 m ρ c main_v43 = _ := w5_agg m ρ c
  rw [hb, ha]
  rfl
theorem w6_src : W6 m ρ c (main_v5 : DevRef τ sig) = srcOf (m ((c.tc : Thread nD τ).loc main_arg5)) := (W6_of_ne m ρ c main_v5 (by decide)).trans (w5_src m ρ c)
theorem w6_dst : W6 m ρ c (main_v6 : DevRef τ sig) = dstOf (m ((c.tc : Thread nD τ).loc main_arg5)) := (W6_of_ne m ρ c main_v6 (by decide)).trans (w5_dst m ρ c)
theorem w6_norm : W6 m ρ c (main_v29 : DevRef τ sig) = Cert.Out.norm (m ((c.tc : Thread nD τ).loc main_arg5)) := (W6_of_ne m ρ c main_v29 (by decide)).trans (w5_norm m ρ c)
theorem w6_arg3 : W6 m ρ c (main_arg3 : DevRef τ sig) = (m ((c.tc : Thread nD τ).loc main_arg3)) := (W6_of_ne m ρ c main_arg3 (by decide)).trans (w5_arg3 m ρ c)
theorem w6_arg4 : W6 m ρ c (main_arg4 : DevRef τ sig) = (m ((c.tc : Thread nD τ).loc main_arg4)) := (W6_of_ne m ρ c main_arg4 (by decide)).trans (w5_arg4 m ρ c)

/-! ## The third region: hidden · W2 -/

theorem w7_prod : W7 m ρ c (main_v46 : DevRef τ sig)
    = Cert.Spec.mm (M := 100000) (K := 64) (N := 4) (Cert.Out.hidden (m ((c.tc : Thread nD τ).loc main_arg0)) (m ((c.tc : Thread nD τ).loc main_arg1)) (m ((c.tc : Thread nD τ).loc main_arg2)) (m ((c.tc : Thread nD τ).loc main_arg5))) (m ((c.tc : Thread nD τ).loc main_arg3)) :=
  (W7_arr m ρ c 2).trans ((Cert.KernelIdeal.Reg2.arr (V6 m ρ) c).trans
    (congrArg₂ (Cert.Spec.mm (M := 100000) (K := 64) (N := 4)) (w6_hidden m ρ c) (w6_arg3 m ρ c)))
theorem w7_src : W7 m ρ c (main_v5 : DevRef τ sig) = srcOf (m ((c.tc : Thread nD τ).loc main_arg5)) := (W7_of_ne m ρ c main_v5 (by decide)).trans (w6_src m ρ c)
theorem w7_dst : W7 m ρ c (main_v6 : DevRef τ sig) = dstOf (m ((c.tc : Thread nD τ).loc main_arg5)) := (W7_of_ne m ρ c main_v6 (by decide)).trans (w6_dst m ρ c)
theorem w7_norm : W7 m ρ c (main_v29 : DevRef τ sig) = Cert.Out.norm (m ((c.tc : Thread nD τ).loc main_arg5)) := (W7_of_ne m ρ c main_v29 (by decide)).trans (w6_norm m ρ c)
theorem w7_arg4 : W7 m ρ c (main_arg4 : DevRef τ sig) = (m ((c.tc : Thread nD τ).loc main_arg4)) := (W7_of_ne m ρ c main_arg4 (by decide)).trans (w6_arg4 m ρ c)

/-! ## The second aggregation, its bias, and the last region: bias and the row softmax -/

theorem w8_agg : W8 m ρ c (main_v59 : DevRef τ sig)
    = agg4 (srcOf (m ((c.tc : Thread nD τ).loc main_arg5))) (dstOf (m ((c.tc : Thread nD τ).loc main_arg5))) (Cert.Out.norm (m ((c.tc : Thread nD τ).loc main_arg5)))
        (Cert.Spec.mm (M := 100000) (K := 64) (N := 4) (Cert.Out.hidden (m ((c.tc : Thread nD τ).loc main_arg0)) (m ((c.tc : Thread nD τ).loc main_arg1)) (m ((c.tc : Thread nD τ).loc main_arg2)) (m ((c.tc : Thread nD τ).loc main_arg5))) (m ((c.tc : Thread nD τ).loc main_arg3))) := by
  refine (s4_agg (W7 m ρ c)).trans ?_
  rw [w7_src m ρ c, w7_dst m ρ c, w7_norm m ρ c, w7_prod m ρ c]
theorem w8_bias : W8 m ρ c (main_v60 : DevRef τ sig) = fun i => shapeCast S1x4 (m ((c.tc : Thread nD τ).loc main_arg4)) Facts₀.shapeCasts_S4_S1x4 i := by
  refine (s4_bias (W7 m ρ c)).trans ?_
  rw [w7_arg4 m ρ c]

/-- THE RESULT ARRAY after the run is `out` of the six argument arrays as launched. -/
theorem result : W9 m ρ c (main_v61 : DevRef τ sig)
    = Cert.Out.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 2).trans ((Cert.KernelIdeal.Reg3.arr (V8 m ρ) c).trans ?_)
  have hb : (fun i : (⟨1, ![4]⟩ : Shape).Idx => V8 m ρ c main_v60 (ix2 (0 : Fin 1) (i 0))) = (m ((c.tc : Thread nD τ).loc main_arg4)) := by
    funext i
    have h := congrFun (w8_bias m ρ c) (ix2 (0 : Fin 1) (i 0))
    exact h.trans ((shapeCast_a_1a_apply _ _ 0 (i 0)).trans (congrArg _ (eq_ix1 i).symm))
  have ha : V8 m ρ c main_v59 = _ := w8_agg m ρ c
  rw [hb, ha]
  rfl

end Cert.KernelIdeal.KValue

end
-- ==== Proof.RefRun.lean ====
/-
  The reference program's @main as five stretches of host operations, in order — the edge lists and the degree
  normalisation up to the call of `where`; that call's three operations; the first layer up to the call of the leaky
  rectifier; that call's seven operations (its own inner `where` last); the second layer and the softmax — and its run:
  every weakly fair execution terminates with every buffer at the fold of these operations over the launch memory.
-/
import proofs.«155087_j42863773614285_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Idealize.ShloMosaic Idealize.ShloMosaic.TcCoe Idealize.SL.Sem Facts₀ Facts

variable {F : FTy → Type} [FloatOps F]

/-- The 18 operations before the call of `where`: the two edge rows with the self loops appended, the degrees by a scatter-add of ones, their comparison with zero and reciprocal square root. -/
abbrev opsA : List (HloOp τ sig (Elt F)) :=
  [ StableHlo.nullary main_v0 (iotaInDim S100000 32 0),
    StableHlo.unary main_arg5 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg5 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]
theorem opsA_sub : (opsA : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub ..⟩

/-- The call of `where`: the zero converted, broadcast, the select. -/
abbrev opsW : List (HloOp τ sig (Elt F)) :=
  [ StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select ]
theorem opsW_sub : (opsW : List (HloOp τ sig (Elt F))).Forall fun op => op.bufs ⊆ StableHlo.tcRefs τ sig :=
  ⟨StableHlo.unary_bufs_sub .., StableHlo.unary_bufs_sub .., StableHlo.ternary_bufs_sub ..⟩

/-- From the normalisation's two gathers to the first layer's biased scatter-add and the slope constant. -/
abbrev opsB : List (HloOp τ sig (Elt F)) :=
  [ StableHlo.nullary main_c (constantI S_ 32 0#32),
    StableHlo.unary main_c main_v15 (broadcastInDim S3300000 ![] bcast_S_S3300000 : (⟨S_, .i32⟩ : BufTy).Contents (Elt F) → (⟨S3300000, .i32⟩ : BufTy).Contents (Elt F)),
    StableHlo.binary main_v3 main_v15 main_v16 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v17 (broadcastInDim S3300000 ![] bcast_S_S3300000 : (⟨S_, .i32⟩ : BufTy).Contents (Elt F) → (⟨S3300000, .i32⟩ : BufTy).Contents (Elt F)),
    StableHlo.binary main_v3 main_v17 main_v18 (addi : (⟨S3300000, .i32⟩ : BufTy).Contents (Elt F) → (⟨S3300000, .i32⟩ : BufTy).Contents (Elt F) → (⟨S3300000, .i32⟩ : BufTy).Contents (Elt F)),
    StableHlo.ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v19 main_v20 (broadcastInDim S3300000x1 ![0] bcast_S3300000_S3300000x1_0 : (⟨S3300000, .i32⟩ : BufTy).Contents (Elt F) → (⟨S3300000x1, .i32⟩ : BufTy).Contents (Elt F)),
    StableHlo.binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_4 (constantI S_ 32 0#32),
    StableHlo.unary main_c_4 main_v22 (broadcastInDim S3300000 ![] bcast_S_S3300000 : (⟨S_, .i32⟩ : BufTy).Contents (Elt F) → (⟨S3300000, .i32⟩ : BufTy).Contents (Elt F)),
    StableHlo.binary main_v6 main_v22 main_v23 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v24 (broadcastInDim S3300000 ![] bcast_S_S3300000 : (⟨S_, .i32⟩ : BufTy).Contents (Elt F) → (⟨S3300000, .i32⟩ : BufTy).Contents (Elt F)),
    StableHlo.binary main_v6 main_v24 main_v25 (addi : (⟨S3300000, .i32⟩ : BufTy).Contents (Elt F) → (⟨S3300000, .i32⟩ : BufTy).Contents (Elt F) → (⟨S3300000, .i32⟩ : BufTy).Contents (Elt F)),
    StableHlo.ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v26 main_v27 (broadcastInDim S3300000x1 ![0] bcast_S3300000_S3300000x1_0 : (⟨S3300000, .i32⟩ : BufTy).Contents (Elt F) → (⟨S3300000x1, .i32⟩ : BufTy).Contents (Elt F)),
    StableHlo.binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v21 main_v28 main_v29 (mulf : (⟨S3300000, .f32⟩ : BufTy).Contents (Elt F) → (⟨S3300000, .f32⟩ : BufTy).Contents (Elt F) → (⟨S3300000, .f32⟩ : BufTy).Contents (Elt F)),
    StableHlo.binary main_arg0 main_arg1 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_v29 main_v31 (broadcastInDim S3300000x1 ![0] bcast_S3300000_S3300000x1_0 : (⟨S3300000, .f32⟩ : BufTy).Contents (Elt F) → (⟨S3300000x1, .f32⟩ : BufTy).Contents (Elt F)),
    StableHlo.nullary main_c_6 (constantI S_ 32 0#32),
    StableHlo.unary main_c_6 main_v32 (broadcastInDim S3300000 ![] bcast_S_S3300000 : (⟨S_, .i32⟩ : BufTy).Contents (Elt F) → (⟨S3300000, .i32⟩ : BufTy).Contents (Elt F)),
    StableHlo.binary main_v3 main_v32 main_v33 (cmpi .slt : (⟨S3300000, .i32⟩ : BufTy).Contents (Elt F) → (⟨S3300000, .i32⟩ : BufTy).Contents (Elt F) → (⟨S3300000, .i1⟩ : BufTy).Contents (Elt F)),
    StableHlo.nullary main_c_7 (constantI S_ 32 100000#32),
    StableHlo.unary main_c_7 main_v34 (broadcastInDim S3300000 ![] bcast_S_S3300000 : (⟨S_, .i32⟩ : BufTy).Contents (Elt F) → (⟨S3300000, .i32⟩ : BufTy).Contents (Elt F)),
    StableHlo.binary main_v3 main_v34 main_v35 (addi : (⟨S3300000, .i32⟩ : BufTy).Contents (Elt F) → (⟨S3300000, .i32⟩ : BufTy).Contents (Elt F) → (⟨S3300000, .i32⟩ : BufTy).Contents (Elt F)),
    StableHlo.ternary main_v33 main_v35 main_v3 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v36 main_v37 (broadcastInDim S3300000x1 ![0] bcast_S3300000_S3300000x1_0 : (⟨S3300000, .i32⟩ : BufTy).Contents (Elt F) → (⟨S3300000x1, .i32⟩ : BufTy).Contents (Elt F)),
    StableHlo.binary main_v30 main_v37 main_v38 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.unary main_v31 main_v39 (broadcastInDim S3300000x64 ![0, 1] bcast_S3300000x1_S3300000x64_0_1 : (⟨S3300000x1, .f32⟩ : BufTy).Contents (Elt F) → (⟨S3300000x64, .f32⟩ : BufTy).Contents (Elt F)),
    StableHlo.binary main_v39 main_v38 main_v40 (mulf : (⟨S3300000x64, .f32⟩ : BufTy).Contents (Elt F) → (⟨S3300000x64, .f32⟩ : BufTy).Contents (Elt F) → (⟨S3300000x64, .f32⟩ : BufTy).Contents (Elt F)),
    StableHlo.nullary main_cst_8 (constant S_ .f32 0x00000000#32),
    StableHlo.unary main_cst_8 main_v41 (broadcastInDim S100000x64 ![] bcast_S_S100000x64 : (⟨S_, .f32⟩ : BufTy).Contents (Elt F) → (⟨S100000x64, .f32⟩ : BufTy).Contents (Elt F)),
    StableHlo.unary main_v6 main_v42 (broadcastInDim S3300000x1 ![0] bcast_S3300000_S3300000x1_0 : (⟨S3300000, .i32⟩ : BufTy).Contents (Elt F) → (⟨S3300000x1, .i32⟩ : BufTy).Contents (Elt F)),
    StableHlo.ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_arg2 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3C23D70A#32) ]
theorem opsB_sub : (opsB : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub ..⟩

/-- The call of the leaky rectifier: zero, its broadcast, the comparison, the slope converted and broadcast, the product, the inner select. -/
abbrev opsL : List (HloOp τ sig (Elt F)) :=
  [ StableHlo.TRef.nullary main_call1.cst (constant S_ .f32 0x00000000#32),
    StableHlo.TRef.unary main_call1.cst main_call1.v0 (broadcastInDim S100000x64 ![] bcast_S_S100000x64),
    StableHlo.TRef.binary (.of main_v46 : StableHlo.TRef sig ⟨S100000x64, .f32⟩) main_call1.v0 main_call1.v1 (cmpf .oge),
    StableHlo.TRef.unary (.of main_cst_9 : StableHlo.TRef sig ⟨S_, .f32⟩) main_call1.v2 id,
    StableHlo.TRef.unary main_call1.v2 main_call1.v3 (broadcastInDim S100000x64 ![] bcast_S_S100000x64),
    StableHlo.TRef.binary main_call1.v3 (.of main_v46 : StableHlo.TRef sig ⟨S100000x64, .f32⟩) main_call1.v4 mulf,
    StableHlo.TRef.ternary main_call1.v1 (.of main_v46 : StableHlo.TRef sig ⟨S100000x64, .f32⟩) main_call1.v4 main_call1.call0.v0 select ]
theorem opsL_sub : (opsL : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩

/-- The second layer and the softmax over axis 1. -/
abbrev opsC : List (HloOp τ sig (Elt F)) :=
  [ StableHlo.binary main_v47 main_arg3 main_v48 ((fun l r => Host.dotGeneral dot_S100000x64_S64x4_S100000x4_1_0_0_1_n_n none l r) : (⟨S100000x64, .f32⟩ : BufTy).Contents (Elt F) → (⟨S64x4, .f32⟩ : BufTy).Contents (Elt F) → (⟨S100000x4, .f32⟩ : BufTy).Contents (Elt F)),
    StableHlo.unary main_v29 main_v49 (broadcastInDim S3300000x1 ![0] bcast_S3300000_S3300000x1_0 : (⟨S3300000, .f32⟩ : BufTy).Contents (Elt F) → (⟨S3300000x1, .f32⟩ : BufTy).Contents (Elt F)),
    StableHlo.nullary main_c_10 (constantI S_ 32 0#32),
    StableHlo.unary main_c_10 main_v50 (broadcastInDim S3300000 ![] bcast_S_S3300000 : (⟨S_, .i32⟩ : BufTy).Contents (Elt F) → (⟨S3300000, .i32⟩ : BufTy).Contents (Elt F)),
    StableHlo.binary main_v3 main_v50 main_v51 (cmpi .slt : (⟨S3300000, .i32⟩ : BufTy).Contents (Elt F) → (⟨S3300000, .i32⟩ : BufTy).Contents (Elt F) → (⟨S3300000, .i1⟩ : BufTy).Contents (Elt F)),
    StableHlo.nullary main_c_11 (constantI S_ 32 100000#32),
    StableHlo.unary main_c_11 main_v52 (broadcastInDim S3300000 ![] bcast_S_S3300000 : (⟨S_, .i32⟩ : BufTy).Contents (Elt F) → (⟨S3300000, .i32⟩ : BufTy).Contents (Elt F)),
    StableHlo.binary main_v3 main_v52 main_v53 (addi : (⟨S3300000, .i32⟩ : BufTy).Contents (Elt F) → (⟨S3300000, .i32⟩ : BufTy).Contents (Elt F) → (⟨S3300000, .i32⟩ : BufTy).Contents (Elt F)),
    StableHlo.ternary main_v51 main_v53 main_v3 main_v54 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v54 main_v55 (broadcastInDim S3300000x1 ![0] bcast_S3300000_S3300000x1_0 : (⟨S3300000, .i32⟩ : BufTy).Contents (Elt F) → (⟨S3300000x1, .i32⟩ : BufTy).Contents (Elt F)),
    StableHlo.binary main_v48 main_v55 main_v56 ((fun x i => Host.gather gather_S100000x4_S3300000x1_S3300000x4_1_0_n_n_0_1_14 x i) : (⟨S100000x4, .f32⟩ : BufTy).Contents (Elt F) → (⟨S3300000x1, .i32⟩ : BufTy).Contents (Elt F) → (⟨S3300000x4, .f32⟩ : BufTy).Contents (Elt F)),
    StableHlo.unary main_v49 main_v57 (broadcastInDim S3300000x4 ![0, 1] bcast_S3300000x1_S3300000x4_0_1 : (⟨S3300000x1, .f32⟩ : BufTy).Contents (Elt F) → (⟨S3300000x4, .f32⟩ : BufTy).Contents (Elt F)),
    StableHlo.binary main_v57 main_v56 main_v58 (mulf : (⟨S3300000x4, .f32⟩ : BufTy).Contents (Elt F) → (⟨S3300000x4, .f32⟩ : BufTy).Contents (Elt F) → (⟨S3300000x4, .f32⟩ : BufTy).Contents (Elt F)),
    StableHlo.nullary main_cst_12 (constant S_ .f32 0x00000000#32),
    StableHlo.unary main_cst_12 main_v59 (broadcastInDim S100000x4 ![] bcast_S_S100000x4 : (⟨S_, .f32⟩ : BufTy).Contents (Elt F) → (⟨S100000x4, .f32⟩ : BufTy).Contents (Elt F)),
    StableHlo.unary main_v6 main_v60 (broadcastInDim S3300000x1 ![0] bcast_S3300000_S3300000x1_0 : (⟨S3300000, .i32⟩ : BufTy).Contents (Elt F) → (⟨S3300000x1, .i32⟩ : BufTy).Contents (Elt F)),
    StableHlo.ternary main_v59 main_v60 main_v58 main_v61 ((fun x i u => Host.scatterAdd scatter_S100000x4_S3300000x1_S3300000x4_1_0_0_1 x i u) : (⟨S100000x4, .f32⟩ : BufTy).Contents (Elt F) → (⟨S3300000x1, .i32⟩ : BufTy).Contents (Elt F) → (⟨S3300000x4, .f32⟩ : BufTy).Contents (Elt F) → (⟨S100000x4, .f32⟩ : BufTy).Contents (Elt F)),
    StableHlo.unary main_arg4 main_v62 (broadcastInDim S1x4 ![1] bcast_S4_S1x4_1 : (⟨S4, .f32⟩ : BufTy).Contents (Elt F) → (⟨S1x4, .f32⟩ : BufTy).Contents (Elt F)),
    StableHlo.unary main_v62 main_v63 (broadcastInDim S100000x4 ![0, 1] bcast_S1x4_S100000x4_0_1 : (⟨S1x4, .f32⟩ : BufTy).Contents (Elt F) → (⟨S100000x4, .f32⟩ : BufTy).Contents (Elt F)),
    StableHlo.binary main_v61 main_v63 main_v64 (addf : (⟨S100000x4, .f32⟩ : BufTy).Contents (Elt F) → (⟨S100000x4, .f32⟩ : BufTy).Contents (Elt F) → (⟨S100000x4, .f32⟩ : BufTy).Contents (Elt F)),
    StableHlo.nullary main_cst_13 (constant S_ .f32 0xFF800000#32),
    StableHlo.binary main_v64 main_cst_13 main_v65 ((fun x v => Host.reduce FloatOps.maximumf x v reducesTo_S100000x4_S100000_d1 h_S_) : (⟨S100000x4, .f32⟩ : BufTy).Contents (Elt F) → (⟨S_, .f32⟩ : BufTy).Contents (Elt F) → (⟨S100000, .f32⟩ : BufTy).Contents (Elt F)),
    StableHlo.nullary main_cst_14 (constant S_ .f32 0xFF800000#32),
    StableHlo.unary main_cst_14 main_v66 (broadcastInDim S100000 ![] bcast_S_S100000 : (⟨S_, .f32⟩ : BufTy).Contents (Elt F) → (⟨S100000, .f32⟩ : BufTy).Contents (Elt F)),
    StableHlo.binary main_v66 main_v65 main_v67 (maximumf : (⟨S100000, .f32⟩ : BufTy).Contents (Elt F) → (⟨S100000, .f32⟩ : BufTy).Contents (Elt F) → (⟨S100000, .f32⟩ : BufTy).Contents (Elt F)),
    StableHlo.unary main_v67 main_v68 (broadcastInDim S100000x1 ![0] bcast_S100000_S100000x1_0 : (⟨S100000, .f32⟩ : BufTy).Contents (Elt F) → (⟨S100000x1, .f32⟩ : BufTy).Contents (Elt F)),
    StableHlo.unary main_v68 main_v69 (broadcastInDim S100000x4 ![0, 1] bcast_S100000x1_S100000x4_0_1 : (⟨S100000x1, .f32⟩ : BufTy).Contents (Elt F) → (⟨S100000x4, .f32⟩ : BufTy).Contents (Elt F)),
    StableHlo.binary main_v64 main_v69 main_v70 (subf : (⟨S100000x4, .f32⟩ : BufTy).Contents (Elt F) → (⟨S100000x4, .f32⟩ : BufTy).Contents (Elt F) → (⟨S100000x4, .f32⟩ : BufTy).Contents (Elt F)),
    StableHlo.unary main_v70 main_v71 (Host.exp : (⟨S100000x4, .f32⟩ : BufTy).Contents (Elt F) → (⟨S100000x4, .f32⟩ : BufTy).Contents (Elt F)),
    StableHlo.nullary main_cst_15 (constant S_ .f32 0x00000000#32),
    StableHlo.binary main_v71 main_cst_15 main_v72 ((fun x v => Host.reduceAdd x v reducesTo_S100000x4_S100000_d1 h_S_) : (⟨S100000x4, .f32⟩ : BufTy).Contents (Elt F) → (⟨S_, .f32⟩ : BufTy).Contents (Elt F) → (⟨S100000, .f32⟩ : BufTy).Contents (Elt F)),
    StableHlo.unary main_v72 main_v73 (broadcastInDim S100000x1 ![0] bcast_S100000_S100000x1_0 : (⟨S100000, .f32⟩ : BufTy).Contents (Elt F) → (⟨S100000x1, .f32⟩ : BufTy).Contents (Elt F)),
    StableHlo.unary main_v73 main_v74 (broadcastInDim S100000x4 ![0, 1] bcast_S100000x1_S100000x4_0_1 : (⟨S100000x1, .f32⟩ : BufTy).Contents (Elt F) → (⟨S100000x4, .f32⟩ : BufTy).Contents (Elt F)),
    StableHlo.binary main_v71 main_v74 main_v75 (Host.divf : (⟨S100000x4, .f32⟩ : BufTy).Contents (Elt F) → (⟨S100000x4, .f32⟩ : BufTy).Contents (Elt F) → (⟨S100000x4, .f32⟩ : BufTy).Contents (Elt F)) ]
theorem opsC_sub : (opsC : List (HloOp τ sig (Elt F))).Forall fun op => op.bufs ⊆ StableHlo.tcRefs τ sig :=
  ⟨StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩

/-- All of @main's operations, in order. -/
abbrev ops : List (HloOp τ sig (Elt F)) := opsA ++ (opsW ++ (opsB ++ (opsL ++ opsC)))

theorem ops_sub : (ops : List (HloOp τ sig (Elt F))).Forall fun op => op.bufs ⊆ StableHlo.tcRefs τ sig :=
  List.forall_append.mpr ⟨opsA_sub, List.forall_append.mpr ⟨opsW_sub, List.forall_append.mpr ⟨opsB_sub, List.forall_append.mpr ⟨opsL_sub, opsC_sub⟩⟩⟩⟩

/-- The first window of @main is the chain of its stretches, the rectifier's call last. -/
theorem main_part0_chain (c : Dev nD) : main_part0 (F := F) c = (Pipeline.chainK
  [ StableHlo.seq opsA, StableHlo.seq opsW, StableHlo.seq opsB ] (StableHlo.seq opsL) :
    Prog (TpuEff nD τ sig (Elt F) (Pipeline.Sig Λ₀ (Fin 0) fun p => (pcfgs (F := F) p).Adm) .tc) PUnit) := by
  chain_rfl

/-- The second window is its one stretch. -/
theorem main_part1_chain (c : Dev nD) : main_part1 (F := F) c = (Pipeline.chain
  [ StableHlo.seq opsC ] : Prog (TpuEff nD τ sig (Elt F) (Pipeline.Sig Λ₀ (Fin 0) fun p => (pcfgs (F := F) p).Adm) .tc) PUnit) := by
  chain_rfl

/-- A chain of five stretches is the one line of their concatenation. -/
theorem chain_seq5 (a b c d e : List (HloOp τ sig (Elt F))) :
    (Pipeline.chain [StableHlo.seq a, StableHlo.seq b, StableHlo.seq c, StableHlo.seq d, StableHlo.seq e] :
      Prog (TpuEff nD τ sig (Elt F) (Pipeline.Sig Λ₀ (Fin 0) fun p => (pcfgs (F := F) p).Adm) .tc) PUnit)
      = StableHlo.seq (a ++ (b ++ (c ++ (d ++ e)))) := by
  simp only [Pipeline.chain_cons, Pipeline.chain_nil, StableHlo.seq_append]
  congr 1; funext _; congr 1; funext _; congr 1; funext _; congr 1; funext _
  exact bind_pure _

theorem main_eq (c : Dev nD) : main (F := F) c = StableHlo.seq ops := by
  show (main_part0 (F := F) c >>= fun _ => main_part1 (F := F) c) = _
  rewrite [main_part1_chain, main_part0_chain, Pipeline.chainK_bind_chain]
  exact chain_seq5 opsA opsW opsB opsL opsC

theorem scopedRefs_eq : (Finset.univ.filter fun b : Ref sig .tc => b.isScoped) = ∅ := by decide
theorem scopedSems_eq : (Finset.univ.filter fun sm : SemLoc sig => sm.isScoped .tc) = ∅ := by decide

/-- The run: every buffer ends at the fold of the operations over the launch memory. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ

end Cert.ReferenceIdeal.RefRun

end
-- ==== Proof.RefTerms.lean ====
/-
  The reference's two pointwise tails as named functions of whole arrays, at the exact values: what its host operations
  compute after each scatter-add.

  * `lreluTail a b` — the bias b ([64], broadcast over the rows) added to a, then jax's leaky rectifier:
    select (v ≥ 0) v (slope · v), the slope the binary value 0x3C23D70A.
  * `softmaxTail a b` — the bias b ([4]) added to a, then jax's softmax over axis 1: the row maximum (a reduce of max from -∞,
    joined once more with -∞), exp (v - max), its row sum (a reduce of add from 0), the quotient.
-/
import proofs.«155087_j42863773614285_2_alg».proof.Proof.Gen.ReferenceIdeal
import Idealize.ShloMosaic.PureOps.Ideal

noncomputable section

namespace Cert.ReferenceIdeal.RefTerms

open Cert.ReferenceIdeal Idealize.ShloMosaic Facts₀

/-- a + b, the bias broadcast over the 100000 rows of 64. -/
def biased64 (a : FVec Ideal S100000x64 .f32) (b : FVec Ideal S64 .f32) : FVec Ideal S100000x64 .f32 :=
  addf a (broadcastInDim S100000x64 ![0, 1] bcast_S1x64_S100000x64_0_1 (broadcastInDim S1x64 ![1] bcast_S64_S1x64_1 b))

/-- The leaky rectifier as jax writes it, on a whole [100000, 64] array. -/
def lreluOf (v : FVec Ideal S100000x64 .f32) : FVec Ideal S100000x64 .f32 :=
  select (cmpf .oge v (broadcastInDim S100000x64 ![] bcast_S_S100000x64 (constant (F := Ideal) S_ .f32 0x00000000#32)))
    v
    (mulf (broadcastInDim S100000x64 ![] bcast_S_S100000x64 (id (constant (F := Ideal) S_ .f32 0x3C23D70A#32))) v)

/-- Bias, then the leaky rectifier. -/
def lreluTail (a : FVec Ideal S100000x64 .f32) (b : FVec Ideal S64 .f32) : FVec Ideal S100000x64 .f32 :=
  lreluOf (biased64 a b)

/-- a + b, the bias broadcast over the 100000 rows of 4. -/
def biased4 (a : FVec Ideal S100000x4 .f32) (b : FVec Ideal S4 .f32) : FVec Ideal S100000x4 .f32 :=
  addf a (broadcastInDim S100000x4 ![0, 1] bcast_S1x4_S100000x4_0_1 (broadcastInDim S1x4 ![1] bcast_S4_S1x4_1 b))

/-- A [100000] vector as a column broadcast over 4 lanes. -/
def col4 (r : FVec Ideal S100000 .f32) : FVec Ideal S100000x4 .f32 :=
  broadcastInDim S100000x4 ![0, 1] bcast_S100000x1_S100000x4_0_1 (broadcastInDim S100000x1 ![0] bcast_S100000_S100000x1_0 r)

/-- jax's row maximum: the reduce of max from -∞ over axis 1, joined once more with -∞. -/
def rowMaxOf (v : FVec Ideal S100000x4 .f32) : FVec Ideal S100000 .f32 :=
  maximumf (broadcastInDim S100000 ![] bcast_S_S100000 (constant (F := Ideal) S_ .f32 0xFF800000#32))
    (Host.reduce FloatOps.maximumf v (constant (F := Ideal) S_ .f32 0xFF800000#32) reducesTo_S100000x4_S100000_d1 h_S_)

/-- exp (v - rowmax). -/
def expOf (v : FVec Ideal S100000x4 .f32) : FVec Ideal S100000x4 .f32 :=
  Host.exp (subf v (col4 (rowMaxOf v)))

/-- jax's softmax over axis 1 of a whole [100000, 4] array. -/
def softmaxOf (v : FVec Ideal S100000x4 .f32) : FVec Ideal S100000x4 .f32 :=
  Host.divf (expOf v) (col4 (Host.reduceAdd (expOf v) (constant (F := Ideal) S_ .f32 0x00000000#32) reducesTo_S100000x4_S100000_d1 h_S_))

/-- Bias, then the softmax. -/
def softmaxTail (a : FVec Ideal S100000x4 .f32) (b : FVec Ideal S4 .f32) : FVec Ideal S100000x4 .f32 :=
  softmaxOf (biased4 a b)

end Cert.ReferenceIdeal.RefTerms

end
-- ==== Proof.RefValue.lean ====
/-
  What the reference computes, as ONE function of the six argument arrays: the edge lists and weights from the edge array,
  then twice (product with the weight matrix; gather, scale, scatter-add; bias), the leaky rectifier after the first, the
  softmax after the second. Each of the five stretches of @main is read, from ANY contents before it, at the buffers a
  later stretch reads; what a stretch does not write it leaves alone. Read in order from the launch contents, the result
  buffer holds `out` of the arguments, and no argument buffer is ever written.
-/
import proofs.«155087_j42863773614285_2_alg».proof.Proof.RefRun
import proofs.«155087_j42863773614285_2_alg».proof.Proof.RefTerms
import proofs.«155087_j42863773614285_2_alg».proof.Proof.Chain

set_option maxRecDepth 16384

noncomputable section

namespace Cert.ReferenceIdeal.RefValue

open Cert.ReferenceIdeal Cert.ReferenceIdeal.RefRun Cert.ReferenceIdeal.RefTerms Cert.ReferenceIdeal.Chain
open Idealize.ShloMosaic Idealize.ShloMosaic.TcCoe Idealize.ShloMosaic.StableHlo Idealize.SL.Sem Facts₀

/-- The reference's result from its arguments. -/
def out (x : FVec Ideal S100000x128 .f32) (w1 : FVec Ideal S128x64 .f32) (b1 : FVec Ideal S64 .f32)
    (w2 : FVec Ideal S64x4 .f32) (b2 : FVec Ideal S4 .f32) (e : EdgeArr) : FVec Ideal S100000x4 .f32 :=
  softmaxTail
    (agg4 (srcOf e) (dstOf e) (normOf (srcOf e) (dstOf e) (disOf (degOf (dstOf e))))
      (Host.dotGeneral (F := Ideal) dot_S100000x64_S64x4_S100000x4_1_0_0_1_n_n none
        (lreluTail
          (agg64 (srcOf e) (dstOf e) (normOf (srcOf e) (dstOf e) (disOf (degOf (dstOf e))))
            (Host.dotGeneral (F := Ideal) dot_S100000x128_S128x64_S100000x64_1_0_0_1_n_n none x w1))
          b1)
        w2))
    b2

variable (V : Valuation τ sig (Elt Ideal))

/-- The two host matrix products. -/
def prod1 (x : FVec Ideal S100000x128 .f32) (w : FVec Ideal S128x64 .f32) : FVec Ideal S100000x64 .f32 :=
  Host.dotGeneral (F := Ideal) dot_S100000x128_S128x64_S100000x64_1_0_0_1_n_n none x w
def prod2 (h : FVec Ideal S100000x64 .f32) (w : FVec Ideal S64x4 .f32) : FVec Ideal S100000x4 .f32 :=
  Host.dotGeneral (F := Ideal) dot_S100000x64_S64x4_S100000x4_1_0_0_1_n_n none h w
/-- jax's leaky rectifier with the slope read from a scalar buffer. -/
def actOf (v : FVec Ideal S100000x64 .f32) (s : FVec Ideal S_ .f32) : FVec Ideal S100000x64 .f32 :=
  select (cmpf .oge v (broadcastInDim S100000x64 ![] bcast_S_S100000x64 (constant (F := Ideal) S_ .f32 0x00000000#32)))
    v (mulf (broadcastInDim S100000x64 ![] bcast_S_S100000x64 (id s)) v)

attribute [local irreducible] Host.gather Host.scatterAdd Host.reduce Host.reduceAdd concatenate

/-! ## The first stretch -/

theorem a_src : after (opsA (F := Ideal)) V (main_v3 : DevRef τ sig) = srcOf (V (main_arg5 : DevRef τ sig)) := by after_results_simp; rfl
theorem a_dst : after (opsA (F := Ideal)) V (main_v6 : DevRef τ sig) = dstOf (V (main_arg5 : DevRef τ sig)) := by after_results_simp; rfl
theorem a_gt : after (opsA (F := Ideal)) V (main_v12 : DevRef τ sig)
    = cmpf .ogt (degOf (dstOf (V (main_arg5 : DevRef τ sig)))) (broadcastInDim S100000 ![] bcast_S_S100000 (constant (F := Ideal) S_ .f32 0x00000000#32)) := by
  after_results_simp; rfl
theorem a_rsqrt : after (opsA (F := Ideal)) V (main_v13 : DevRef τ sig) = Host.rsqrt (degOf (dstOf (V (main_arg5 : DevRef τ sig)))) := by after_results_simp; rfl
theorem a_zero : after (opsA (F := Ideal)) V (main_cst_2 : DevRef τ sig) = constant (F := Ideal) S_ .f32 0x00000000#32 := by after_results_simp
theorem a_arg0 : after (opsA (F := Ideal)) V (main_arg0 : DevRef τ sig) = V (main_arg0 : DevRef τ sig) := by after_results_simp
theorem a_arg1 : after (opsA (F := Ideal)) V (main_arg1 : DevRef τ sig) = V (main_arg1 : DevRef τ sig) := by after_results_simp
theorem a_arg2 : after (opsA (F := Ideal)) V (main_arg2 : DevRef τ sig) = V (main_arg2 : DevRef τ sig) := by after_results_simp
theorem a_arg3 : after (opsA (F := Ideal)) V (main_arg3 : DevRef τ sig) = V (main_arg3 : DevRef τ sig) := by after_results_simp
theorem a_arg4 : after (opsA (F := Ideal)) V (main_arg4 : DevRef τ sig) = V (main_arg4 : DevRef τ sig) := by after_results_simp
theorem a_arg5 : after (opsA (F := Ideal)) V (main_arg5 : DevRef τ sig) = V (main_arg5 : DevRef τ sig) := by after_results_simp

/-! ## The call of `where` -/

theorem w_dis : after (opsW (F := Ideal)) V (main_v14 : DevRef τ sig)
    = select (V (main_v12 : DevRef τ sig)) (V (main_v13 : DevRef τ sig)) (broadcastInDim S100000 ![] bcast_S_S100000 (id (V (main_cst_2 : DevRef τ sig)))) := by
  after_results_simp; rfl
theorem w_src : after (opsW (F := Ideal)) V (main_v3 : DevRef τ sig) = V (main_v3 : DevRef τ sig) := by after_results_simp
theorem w_dst : after (opsW (F := Ideal)) V (main_v6 : DevRef τ sig) = V (main_v6 : DevRef τ sig) := by after_results_simp
theorem w_arg0 : after (opsW (F := Ideal)) V (main_arg0 : DevRef τ sig) = V (main_arg0 : DevRef τ sig) := by after_results_simp
theorem w_arg1 : after (opsW (F := Ideal)) V (main_arg1 : DevRef τ sig) = V (main_arg1 : DevRef τ sig) := by after_results_simp
theorem w_arg2 : after (opsW (F := Ideal)) V (main_arg2 : DevRef τ sig) = V (main_arg2 : DevRef τ sig) := by after_results_simp
theorem w_arg3 : after (opsW (F := Ideal)) V (main_arg3 : DevRef τ sig) = V (main_arg3 : DevRef τ sig) := by after_results_simp
theorem w_arg4 : after (opsW (F := Ideal)) V (main_arg4 : DevRef τ sig) = V (main_arg4 : DevRef τ sig) := by after_results_simp
theorem w_arg5 : after (opsW (F := Ideal)) V (main_arg5 : DevRef τ sig) = V (main_arg5 : DevRef τ sig) := by after_results_simp

/-! ## The weights and the first layer up to its bias -/

theorem b_norm : after (opsB (F := Ideal)) V (main_v29 : DevRef τ sig) = normOf (V (main_v3 : DevRef τ sig)) (V (main_v6 : DevRef τ sig)) (V (main_v14 : DevRef τ sig)) := by
  after_results_simp; rfl
theorem b_pre : after (opsB (F := Ideal)) V (main_v46 : DevRef τ sig)
    = biased64 (agg64 (V (main_v3 : DevRef τ sig)) (V (main_v6 : DevRef τ sig)) (normOf (V (main_v3 : DevRef τ sig)) (V (main_v6 : DevRef τ sig)) (V (main_v14 : DevRef τ sig)))
        (prod1 (V (main_arg0 : DevRef τ sig)) (V (main_arg1 : DevRef τ sig))))
      (V (main_arg2 : DevRef τ sig)) := by
  after_results_simp; rfl
theorem b_slope : after (opsB (F := Ideal)) V (main_cst_9 : DevRef τ sig) = constant (F := Ideal) S_ .f32 0x3C23D70A#32 := by after_results_simp
theorem b_src : after (opsB (F := Ideal)) V (main_v3 : DevRef τ sig) = V (main_v3 : DevRef τ sig) := by after_results_simp
theorem b_dst : after (opsB (F := Ideal)) V (main_v6 : DevRef τ sig) = V (main_v6 : DevRef τ sig) := by after_results_simp
theorem b_arg0 : after (opsB (F := Ideal)) V (main_arg0 : DevRef τ sig) = V (main_arg0 : DevRef τ sig) := by after_results_simp
theorem b_arg1 : after (opsB (F := Ideal)) V (main_arg1 : DevRef τ sig) = V (main_arg1 : DevRef τ sig) := by after_results_simp
theorem b_arg2 : after (opsB (F := Ideal)) V (main_arg2 : DevRef τ sig) = V (main_arg2 : DevRef τ sig) := by after_results_simp
theorem b_arg3 : after (opsB (F := Ideal)) V (main_arg3 : DevRef τ sig) = V (main_arg3 : DevRef τ sig) := by after_results_simp
theorem b_arg4 : after (opsB (F := Ideal)) V (main_arg4 : DevRef τ sig) = V (main_arg4 : DevRef τ sig) := by after_results_simp
theorem b_arg5 : after (opsB (F := Ideal)) V (main_arg5 : DevRef τ sig) = V (main_arg5 : DevRef τ sig) := by after_results_simp

/-! ## The call of the leaky rectifier -/

theorem l_act : after (opsL (F := Ideal)) V (main_v47 : DevRef τ sig)
    = actOf (V (main_v46 : DevRef τ sig)) (V (main_cst_9 : DevRef τ sig)) := by
  after_results_simp; rfl
theorem l_src : after (opsL (F := Ideal)) V (main_v3 : DevRef τ sig) = V (main_v3 : DevRef τ sig) := by after_results_simp
theorem l_dst : after (opsL (F := Ideal)) V (main_v6 : DevRef τ sig) = V (main_v6 : DevRef τ sig) := by after_results_simp
theorem l_norm : after (opsL (F := Ideal)) V (main_v29 : DevRef τ sig) = V (main_v29 : DevRef τ sig) := by after_results_simp
theorem l_arg0 : after (opsL (F := Ideal)) V (main_arg0 : DevRef τ sig) = V (main_arg0 : DevRef τ sig) := by after_results_simp
theorem l_arg1 : after (opsL (F := Ideal)) V (main_arg1 : DevRef τ sig) = V (main_arg1 : DevRef τ sig) := by after_results_simp
theorem l_arg2 : after (opsL (F := Ideal)) V (main_arg2 : DevRef τ sig) = V (main_arg2 : DevRef τ sig) := by after_results_simp
theorem l_arg3 : after (opsL (F := Ideal)) V (main_arg3 : DevRef τ sig) = V (main_arg3 : DevRef τ sig) := by after_results_simp
theorem l_arg4 : after (opsL (F := Ideal)) V (main_arg4 : DevRef τ sig) = V (main_arg4 : DevRef τ sig) := by after_results_simp
theorem l_arg5 : after (opsL (F := Ideal)) V (main_arg5 : DevRef τ sig) = V (main_arg5 : DevRef τ sig) := by after_results_simp

/-! ## The second layer and the softmax -/

theorem c_out : after (opsC (F := Ideal)) V (main_v75 : DevRef τ sig)
    = softmaxTail (agg4 (V (main_v3 : DevRef τ sig)) (V (main_v6 : DevRef τ sig)) (V (main_v29 : DevRef τ sig))
        (prod2 (V (main_v47 : DevRef τ sig)) (V (main_arg3 : DevRef τ sig))))
      (V (main_arg4 : DevRef τ sig)) := by
  after_results_simp; rfl
theorem c_arg0 : after (opsC (F := Ideal)) V (main_arg0 : DevRef τ sig) = V (main_arg0 : DevRef τ sig) := by after_results_simp
theorem c_arg1 : after (opsC (F := Ideal)) V (main_arg1 : DevRef τ sig) = V (main_arg1 : DevRef τ sig) := by after_results_simp
theorem c_arg2 : after (opsC (F := Ideal)) V (main_arg2 : DevRef τ sig) = V (main_arg2 : DevRef τ sig) := by after_results_simp
theorem c_arg3 : after (opsC (F := Ideal)) V (main_arg3 : DevRef τ sig) = V (main_arg3 : DevRef τ sig) := by after_results_simp
theorem c_arg4 : after (opsC (F := Ideal)) V (main_arg4 : DevRef τ sig) = V (main_arg4 : DevRef τ sig) := by after_results_simp
theorem c_arg5 : after (opsC (F := Ideal)) V (main_arg5 : DevRef τ sig) = V (main_arg5 : DevRef τ sig) := by after_results_simp

/-! ## The five stretches in order -/

theorem after_append (a b : List (HloOp τ sig (Elt Ideal))) (W : Valuation τ sig (Elt Ideal)) : after (a ++ b) W = after b (after a W) := by
  induction a generalizing W with
  | nil => rfl
  | cons op a ih => simp only [List.cons_append, after_cons, ih]

theorem after_ops : after (ops (F := Ideal)) V = after (opsC (F := Ideal)) (after (opsL (F := Ideal)) (after (opsB (F := Ideal)) (after (opsW (F := Ideal)) (after (opsA (F := Ideal)) V)))) := by
  unfold ops
  rw [after_append, after_append, after_append, after_append]
theorem kept_arg0 : after (ops (F := Ideal)) V (main_arg0 : DevRef τ sig) = V (main_arg0 : DevRef τ sig) := by
  rw [after_ops]
  exact (c_arg0 _).trans ((l_arg0 _).trans ((b_arg0 _).trans ((w_arg0 _).trans (a_arg0 V))))
theorem kept_arg1 : after (ops (F := Ideal)) V (main_arg1 : DevRef τ sig) = V (main_arg1 : DevRef τ sig) := by
  rw [after_ops]
  exact (c_arg1 _).trans ((l_arg1 _).trans ((b_arg1 _).trans ((w_arg1 _).trans (a_arg1 V))))
theorem kept_arg2 : after (ops (F := Ideal)) V (main_arg2 : DevRef τ sig) = V (main_arg2 : DevRef τ sig) := by
  rw [after_ops]
  exact (c_arg2 _).trans ((l_arg2 _).trans ((b_arg2 _).trans ((w_arg2 _).trans (a_arg2 V))))
theorem kept_arg3 : after (ops (F := Ideal)) V (main_arg3 : DevRef τ sig) = V (main_arg3 : DevRef τ sig) := by
  rw [after_ops]
  exact (c_arg3 _).trans ((l_arg3 _).trans ((b_arg3 _).trans ((w_arg3 _).trans (a_arg3 V))))
theorem kept_arg4 : after (ops (F := Ideal)) V (main_arg4 : DevRef τ sig) = V (main_arg4 : DevRef τ sig) := by
  rw [after_ops]
  exact (c_arg4 _).trans ((l_arg4 _).trans ((b_arg4 _).trans ((w_arg4 _).trans (a_arg4 V))))
theorem kept_arg5 : after (ops (F := Ideal)) V (main_arg5 : DevRef τ sig) = V (main_arg5 : DevRef τ sig) := by
  rw [after_ops]
  exact (c_arg5 _).trans ((l_arg5 _).trans ((b_arg5 _).trans ((w_arg5 _).trans (a_arg5 V))))

/-- The edge lists, the normalisation vector and the weights where the last stretch reads them. -/
theorem at_src : (after (opsL (F := Ideal)) (after (opsB (F := Ideal)) (after (opsW (F := Ideal)) (after (opsA (F := Ideal)) V)))) (main_v3 : DevRef τ sig) = srcOf (V (main_arg5 : DevRef τ sig)) :=
  (l_src _).trans ((b_src _).trans ((w_src _).trans (a_src V)))
theorem at_dst : (after (opsL (F := Ideal)) (after (opsB (F := Ideal)) (after (opsW (F := Ideal)) (after (opsA (F := Ideal)) V)))) (main_v6 : DevRef τ sig) = dstOf (V (main_arg5 : DevRef τ sig)) :=
  (l_dst _).trans ((b_dst _).trans ((w_dst _).trans (a_dst V)))
theorem at_dis : (after (opsW (F := Ideal)) (after (opsA (F := Ideal)) V)) (main_v14 : DevRef τ sig) = disOf (degOf (dstOf (V (main_arg5 : DevRef τ sig)))) := by
  refine (w_dis _).trans ?_
  rw [a_gt V, a_rsqrt V, a_zero V]
  rfl
theorem at_norm : (after (opsL (F := Ideal)) (after (opsB (F := Ideal)) (after (opsW (F := Ideal)) (after (opsA (F := Ideal)) V)))) (main_v29 : DevRef τ sig)
    = normOf (srcOf (V (main_arg5 : DevRef τ sig))) (dstOf (V (main_arg5 : DevRef τ sig))) (disOf (degOf (dstOf (V (main_arg5 : DevRef τ sig))))) := by
  refine (l_norm _).trans ((b_norm _).trans ?_)
  rw [at_dis V, show (after (opsW (F := Ideal)) (after (opsA (F := Ideal)) V)) (main_v3 : DevRef τ sig) = _ from (w_src _).trans (a_src V), show (after (opsW (F := Ideal)) (after (opsA (F := Ideal)) V)) (main_v6 : DevRef τ sig) = _ from (w_dst _).trans (a_dst V)]
theorem at_act : (after (opsL (F := Ideal)) (after (opsB (F := Ideal)) (after (opsW (F := Ideal)) (after (opsA (F := Ideal)) V)))) (main_v47 : DevRef τ sig)
    = lreluTail (agg64 (srcOf (V (main_arg5 : DevRef τ sig))) (dstOf (V (main_arg5 : DevRef τ sig)))
        (normOf (srcOf (V (main_arg5 : DevRef τ sig))) (dstOf (V (main_arg5 : DevRef τ sig))) (disOf (degOf (dstOf (V (main_arg5 : DevRef τ sig))))))
        (prod1 (V (main_arg0 : DevRef τ sig)) (V (main_arg1 : DevRef τ sig))))
      (V (main_arg2 : DevRef τ sig)) := by
  refine (l_act _).trans ?_
  rw [b_pre (after (opsW (F := Ideal)) (after (opsA (F := Ideal)) V)), b_slope (after (opsW (F := Ideal)) (after (opsA (F := Ideal)) V)), at_dis V,
    show (after (opsW (F := Ideal)) (after (opsA (F := Ideal)) V)) (main_v3 : DevRef τ sig) = _ from (w_src _).trans (a_src V), show (after (opsW (F := Ideal)) (after (opsA (F := Ideal)) V)) (main_v6 : DevRef τ sig) = _ from (w_dst _).trans (a_dst V),
    show (after (opsW (F := Ideal)) (after (opsA (F := Ideal)) V)) (main_arg0 : DevRef τ sig) = _ from (w_arg0 _).trans (a_arg0 V), show (after (opsW (F := Ideal)) (after (opsA (F := Ideal)) V)) (main_arg1 : DevRef τ sig) = _ from (w_arg1 _).trans (a_arg1 V),
    show (after (opsW (F := Ideal)) (after (opsA (F := Ideal)) V)) (main_arg2 : DevRef τ sig) = _ from (w_arg2 _).trans (a_arg2 V)]
  rfl

/-- THE RESULT: the fold of @main's operations at the result buffer is `out` of the launch contents of the arguments. -/
theorem out_eq : after (ops (F := Ideal)) V (main_v75 : DevRef τ sig)
    = out (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [after_ops]
  refine (c_out _).trans ?_
  rw [at_src V, at_dst V, at_norm V, at_act V,
    show (after (opsL (F := Ideal)) (after (opsB (F := Ideal)) (after (opsW (F := Ideal)) (after (opsA (F := Ideal)) V)))) (main_arg3 : DevRef τ sig) = _ from (l_arg3 _).trans ((b_arg3 _).trans ((w_arg3 _).trans (a_arg3 V))),
    show (after (opsL (F := Ideal)) (after (opsB (F := Ideal)) (after (opsW (F := Ideal)) (after (opsA (F := Ideal)) V)))) (main_arg4 : DevRef τ sig) = _ from (l_arg4 _).trans ((b_arg4 _).trans ((w_arg4 _).trans (a_arg4 V)))]
  rfl

end Cert.ReferenceIdeal.RefValue

end
-- ==== Proof.RefDot.lean ====
/-
  The reference's two matrix products, read at the exact values, are the matrix product of whole arrays: at entry
  (p, f) the host's dot_general is the sum, over the contraction's index set, of the operands' products, and that
  index set is the one contracted coordinate k, the left operand read at (p, k) and the right one at (k, f).
-/
import proofs.«155087_j42863773614285_2_alg».proof.Proof.Gen.ReferenceIdeal
import proofs.«155087_j42863773614285_2_alg».proof.Proof.Spec
import proofs.«155087_j42863773614285_2_alg».proof.Proof.LibDotRow

noncomputable section

namespace Cert.ReferenceIdeal.RefStage

open Cert.ReferenceIdeal Idealize.ShloMosaic Facts₀

/-- The first layer's product, [100000, 128] by [128, 64]. -/
theorem dot1 (x : FVec Ideal S100000x128 .f32) (w : FVec Ideal S128x64 .f32) :
    Host.dotGeneral (F := Ideal) dot_S100000x128_S128x64_S100000x64_1_0_0_1_n_n none x w = Cert.Spec.mm (M := 100000) (K := 128) (N := 64) x w := by
  funext j
  simp only [Host.dotGeneral]
  refine (Ideal.dotGeneral_apply _ _ _ _ _ j).trans ?_
  have hj : j = ValueIdx.ix2 (n0 := 100000) (n1 := 64) (j 0) (j 1) := ValueIdx.eq_ix2 j
  refine Eq.trans ?_ (DotRow.sum_contr (M := 100000) (K := 128) (N := 64) dot_S100000x128_S128x64_S100000x64_1_0_0_1_n_n rfl rfl rfl rfl
    (fun _ _ => rfl) (fun _ _ => rfl) x w (j 0) (j 1))
  exact congrArg (fun i : (⟨2, ![100000, 64]⟩ : Shape).Idx =>
    ∑ k : (dot_S100000x128_S128x64_S100000x64_1_0_0_1_n_n).contr.Idx, x ((dot_S100000x128_S128x64_S100000x64_1_0_0_1_n_n).lhsIdx i k) * w ((dot_S100000x128_S128x64_S100000x64_1_0_0_1_n_n).rhsIdx i k)) hj

/-- The second layer's product, [100000, 64] by [64, 4]. -/
theorem dot2 (h : FVec Ideal S100000x64 .f32) (w : FVec Ideal S64x4 .f32) :
    Host.dotGeneral (F := Ideal) dot_S100000x64_S64x4_S100000x4_1_0_0_1_n_n none h w = Cert.Spec.mm (M := 100000) (K := 64) (N := 4) h w := by
  funext j
  simp only [Host.dotGeneral]
  refine (Ideal.dotGeneral_apply _ _ _ _ _ j).trans ?_
  have hj : j = ValueIdx.ix2 (n0 := 100000) (n1 := 4) (j 0) (j 1) := ValueIdx.eq_ix2 j
  refine Eq.trans ?_ (DotRow.sum_contr (M := 100000) (K := 64) (N := 4) dot_S100000x64_S64x4_S100000x4_1_0_0_1_n_n rfl rfl rfl rfl
    (fun _ _ => rfl) (fun _ _ => rfl) h w (j 0) (j 1))
  exact congrArg (fun i : (⟨2, ![100000, 4]⟩ : Shape).Idx =>
    ∑ k : (dot_S100000x64_S64x4_S100000x4_1_0_0_1_n_n).contr.Idx, h ((dot_S100000x64_S64x4_S100000x4_1_0_0_1_n_n).lhsIdx i k) * w ((dot_S100000x64_S64x4_S100000x4_1_0_0_1_n_n).rhsIdx i k)) hj

end Cert.ReferenceIdeal.RefStage

end
-- ==== Proof.RefPoint.lean ====
/-
  The reference's two pointwise tails are the stage functions of the specification, index by index: each broadcast read at
  an index, each host reduction over one axis as a fold or a sum over the row.
-/
import proofs.«155087_j42863773614285_2_alg».proof.Proof.Gen.ReferenceIdeal
import proofs.«155087_j42863773614285_2_alg».proof.Proof.Spec
import proofs.«155087_j42863773614285_2_alg».proof.Proof.RefTerms
import Idealize.ShloMosaic.Lib.IdealHost
import Idealize.ShloMosaic.Lib.KernelVsHost
import Idealize.ShloMosaic.Lib.Pipeline.Value
import Idealize.ShloMosaic.PureOps.Ideal.Laws

noncomputable section

namespace Cert.ReferenceIdeal.RefStage

open Cert.ReferenceIdeal Cert.ReferenceIdeal.RefTerms Idealize.ShloMosaic Idealize.ShloMosaic.ValueIdx Facts₀

/-- A vector [n] placed as the one row of a [1, n] matrix, read at (0, f), is the vector at f. -/
theorem row_of_vector_apply {α : Type} {n : Nat} (h : (⟨1, ![n]⟩ : Shape).BroadcastsInDim ⟨2, ![1, n]⟩ ![1])
    (b : (⟨1, ![n]⟩ : Shape).Idx → α) (f : Fin n) :
    broadcastInDim ⟨2, ![1, n]⟩ ![1] h b (ix2 (0 : Fin 1) f) = b (ix1 f) := by
  refine broadcastInDim_apply ![1] h b (ix2 (0 : Fin 1) f) (ix1 f) ?_
  intro a
  match a with
  | ⟨0, _⟩ =>
    show f.val = if n = 1 then 0 else f.val
    split_ifs with hn
    · have := f.isLt; omega
    · rfl

/-- The biased entry (p, f) of the first tail. -/
theorem biased64_apply (a : FVec Ideal S100000x64 .f32) (b : FVec Ideal S64 .f32) (p : Fin 100000) (f : Fin 64) :
    biased64 a b (ix2 p f) = a (ix2 p f) + b (ix1 f) := by
  unfold biased64
  rw [addf_apply]
  congr 1
  refine (broadcastInDim_oneRow_apply _ _ p f).trans ?_
  exact row_of_vector_apply _ b f

/-- The leaky rectifier on a whole array, at one entry: the rectifier of that entry. -/
theorem lreluOf_apply (v : FVec Ideal S100000x64 .f32) (j : S100000x64.Idx) : lreluOf v j = Cert.Spec.lrelu (v j) := by
  unfold lreluOf Cert.Spec.lrelu
  rw [select_apply, cmpf_apply, mulf_apply, broadcastInDim_scalar_apply, broadcastInDim_scalar_apply]
  rfl

/-- The first tail at entry (p, f). -/
theorem lrelu_tail_apply (a : FVec Ideal S100000x64 .f32) (b : FVec Ideal S64 .f32) (p : Fin 100000) (f : Fin 64) :
    lreluTail a b (ix2 p f) = Cert.Spec.biasLreluAt (M := 100000) (N := 64) a b p f := by
  unfold lreluTail
  rw [lreluOf_apply, biased64_apply]
  rfl

theorem lrelu_tail (a : FVec Ideal S100000x64 .f32) (b : FVec Ideal S64 .f32) :
    lreluTail a b = Cert.Spec.biasLrelu (M := 100000) (N := 64) a b := by
  funext j
  exact (congrArg (lreluTail a b) (eq_ix2 (n0 := 100000) (n1 := 64) j)).trans (lrelu_tail_apply a b (j 0) (j 1))

/-! ## The second tail: bias, then the row softmax -/

/-- The reduction over the lane axis of a [100000, 4] array, as the shape fact that names the inserted coordinate. -/
theorem reduces_lanes : S100000x4.Reduces [1] S100000 := by decide

/-- The index (p) with lane q inserted is (p, q). -/
theorem lift_lane (p : Fin 100000) (q : Fin 4) : reduces_lanes.lift (ix1 p) q = ix2 p q := by
  funext a
  apply Fin.ext
  match a with
  | ⟨0, _⟩ => rfl
  | ⟨1, _⟩ => rfl

/-- -∞ joined with any extended real is that extended real. -/
theorem neg_inf_max (x : EReal) : max (Ideal.ofBits .f32 0xFF800000#32) x = x := by
  simp [Ideal.ofBits, Ideal.ieee]

/-- The biased entry (p, q) of the second tail. -/
theorem biased4_apply (a : FVec Ideal S100000x4 .f32) (b : FVec Ideal S4 .f32) (p : Fin 100000) (q : Fin 4) :
    biased4 a b (ix2 p q) = Cert.Spec.biased (M := 100000) (N := 4) a b p q := by
  unfold biased4 Cert.Spec.biased
  rw [addf_apply]
  congr 1
  refine (broadcastInDim_oneRow_apply _ _ p q).trans ?_
  exact row_of_vector_apply _ b q

/-- A [100000] vector as a column over 4 lanes, read at (p, q), is the vector at p. -/
theorem col4_apply (r : FVec Ideal S100000 .f32) (p : Fin 100000) (q : Fin 4) : col4 r (ix2 p q) = r (ix1 p) := by
  unfold col4
  refine (broadcastInDim_apply ![0, 1] bcast_S100000x1_S100000x4_0_1 _ (ix2 p q) (ix2 p (0 : Fin 1)) ?_).trans ?_
  · intro a
    match a with
    | ⟨0, _⟩ => rfl
    | ⟨1, _⟩ => rfl
  · refine broadcastInDim_apply ![0] bcast_S100000_S100000x1_0 r (ix2 p (0 : Fin 1)) (ix1 p) ?_
    intro a
    match a with
    | ⟨0, _⟩ => rfl

/-- The row maximum at p: the fold of max from -∞ over the row's four entries. -/
theorem rowMaxOf_apply (v : FVec Ideal S100000x4 .f32) (p : Fin 100000) :
    rowMaxOf v (ix1 p)
      = (Finset.univ : Finset (Fin 4)).fold max (Ideal.ofBits .f32 0xFF800000#32) (fun q => v (ix2 p q)) := by
  unfold rowMaxOf
  rw [maximumf_apply, broadcastInDim_scalar_apply, constant_apply]
  refine (neg_inf_max _).trans ?_
  refine (Host.reduce_eq_fold_single (FloatOps.maximumf (F := Ideal) (φ := .f32)) v _ reducesTo_S100000x4_S100000_d1 reduces_lanes h_S_ (ix1 p)).trans ?_
  exact congrArg (fun g : Fin 4 → EReal => (Finset.univ : Finset (Fin 4)).fold max (Ideal.ofBits .f32 0xFF800000#32) g)
    (funext fun q => congrArg v (lift_lane p q))

/-- exp (v - row maximum) at (p, q). -/
theorem expOf_apply (v : FVec Ideal S100000x4 .f32) (p : Fin 100000) (q : Fin 4) :
    expOf v (ix2 p q) = Ideal.exp (v (ix2 p q) - rowMaxOf v (ix1 p)) := by
  unfold expOf
  show Ideal.exp (subf v (col4 (rowMaxOf v)) (ix2 p q)) = _
  rw [subf_apply, col4_apply]

/-- The row sum of an array at p, from zero: the sum of the row's four entries. -/
theorem rowSum_apply (e : FVec Ideal S100000x4 .f32) (p : Fin 100000) :
    Host.reduceAdd e (constant (F := Ideal) S_ .f32 0x00000000#32) reducesTo_S100000x4_S100000_d1 h_S_ (ix1 p)
      = ∑ q : Fin 4, e (ix2 p q) := by
  rw [hostReduceAdd_apply]
  refine (Ideal.hostReduceAdd_single reducesTo_S100000x4_S100000_d1 reduces_lanes e _ (ix1 p)).trans ?_
  rw [constant_apply, Ideal.ofBits_zero_f32, zero_add]
  exact Finset.sum_congr rfl fun q _ => congrArg e (lift_lane p q)

/-- The softmax over the lanes at (p, f). -/
theorem softmaxOf_apply (v : FVec Ideal S100000x4 .f32) (p : Fin 100000) (f : Fin 4) :
    softmaxOf v (ix2 p f) = Ideal.div (expOf v (ix2 p f)) (∑ q : Fin 4, expOf v (ix2 p q)) := by
  unfold softmaxOf
  rw [hostDivf_apply, col4_apply, rowSum_apply]

/-- exp (v - row maximum) of the biased array is the specification's. -/
theorem expOf_biased_apply (a : FVec Ideal S100000x4 .f32) (b : FVec Ideal S4 .f32) (p : Fin 100000) (q : Fin 4) :
    expOf (biased4 a b) (ix2 p q) = Cert.Spec.expShift (M := 100000) (N := 4) a b p q := by
  rw [expOf_apply, rowMaxOf_apply, biased4_apply]
  unfold Cert.Spec.expShift Cert.Spec.rowMax
  simp only [biased4_apply]

/-- The second tail at entry (p, f). -/
theorem softmax_tail_apply (a : FVec Ideal S100000x4 .f32) (b : FVec Ideal S4 .f32) (p : Fin 100000) (f : Fin 4) :
    softmaxTail a b (ix2 p f) = Cert.Spec.biasSoftmaxAt (M := 100000) (N := 4) a b p f := by
  unfold softmaxTail Cert.Spec.biasSoftmaxAt
  rw [softmaxOf_apply]
  simp only [expOf_biased_apply]

theorem softmax_tail (a : FVec Ideal S100000x4 .f32) (b : FVec Ideal S4 .f32) :
    softmaxTail a b = Cert.Spec.biasSoftmax (M := 100000) (N := 4) a b := by
  funext j
  exact (congrArg (softmaxTail a b) (eq_ix2 (n0 := 100000) (n1 := 4) j)).trans (softmax_tail_apply a b (j 0) (j 1))

end Cert.ReferenceIdeal.RefStage

end
-- ==== Proof.RefBridge.lean ====
/-
  The reference's function of its arguments IS the shared `out`: its two host matrix products are the products of the
  specification, its leaky-rectifier tail and its softmax tail the two pointwise stages; the sparse parts are the same
  terms on both sides.
-/
import proofs.«155087_j42863773614285_2_alg».proof.Proof.RefValue
import proofs.«155087_j42863773614285_2_alg».proof.Proof.RefDot
import proofs.«155087_j42863773614285_2_alg».proof.Proof.RefPoint
import proofs.«155087_j42863773614285_2_alg».proof.Proof.Out

noncomputable section

namespace Cert.ReferenceIdeal.RefBridge

open Cert.ReferenceIdeal Cert.ReferenceIdeal.Chain Idealize.ShloMosaic

theorem out_eq_out (x : FVec Ideal S100000x128 .f32) (w1 : FVec Ideal S128x64 .f32) (b1 : FVec Ideal S64 .f32)
    (w2 : FVec Ideal S64x4 .f32) (b2 : FVec Ideal S4 .f32) (e : EdgeArr) :
    Cert.ReferenceIdeal.RefValue.out x w1 b1 w2 b2 e = Cert.Out.out x w1 b1 w2 b2 e := by
  unfold Cert.ReferenceIdeal.RefValue.out Cert.Out.out Cert.Out.hidden Cert.Out.norm
  rw [Cert.ReferenceIdeal.RefStage.dot1, Cert.ReferenceIdeal.RefStage.lrelu_tail, Cert.ReferenceIdeal.RefStage.dot2,
    Cert.ReferenceIdeal.RefStage.softmax_tail]

end Cert.ReferenceIdeal.RefBridge

end
-- ==== Proof.lean ====
/-
  The certificate: a two-layer graph convolution (a Pallas kernel of four regions among host gathers and scatter-adds)
  against its jnp reference, over the extended reals.

  Both programs compute ONE function `Cert.Out.out` of the six argument arrays (Proof/Out.lean): with src, dst the edge
  lists with self loops appended and norm = deg^(-1/2)[src] · deg^(-1/2)[dst],
      out = softmax_rows (A (lrelu (A (x · W1) + b1) · W2) + b2),   A h = scatter_add at dst of norm · h[src].
  * The kernel: its generated frame launches the four regions among five host stretches; the run's last boundary holds
    the result buffer at what the last region's write-backs leave (Proof/KRun.lean). Each region's output array is its
    stage function of its input arrays — a block of 10000 rows per grid point, the ten blocks covering the array
    (Proof/Reg0 … Reg3.lean: the matrix products as sums over the contracted coordinate, bias + leaky rectifier, bias + row
    softmax) — and the host stretches are read from any contents before them (Proof/KStretch.lean); threaded through the
    nine boundaries they give `out` (Proof/KValue.lean). The kernel's rounding of the matmul operands to bf16 is the identity
    on the extended reals.
  * The reference: its @main is five stretches of host operations (Proof/RefRun.lean), read in order they give its own
    composition (Proof/RefValue.lean), whose dot_generals, leaky rectifier and softmax are the same stage functions
    (Proof/RefDot.lean, Proof/RefPoint.lean, Proof/RefBridge.lean).
  No law of the extended reals beyond commutative sums is used, so the precondition (finite inputs) is never opened. The
  ideal pass rewrote nothing: `preserves` is `True`.
-/
import proofs.«155087_j42863773614285_2_alg».proof.Defs
import proofs.«155087_j42863773614285_2_alg».proof.Proof.Gen.Kernel
import proofs.«155087_j42863773614285_2_alg».proof.Proof.Gen.Kernel.Skeleton
import proofs.«155087_j42863773614285_2_alg».proof.Proof.Gen.Kernel.Launch
import proofs.«155087_j42863773614285_2_alg».proof.Proof.Gen.Kernel.Points
import proofs.«155087_j42863773614285_2_alg».proof.Proof.Gen.Kernel.Frame
import proofs.«155087_j42863773614285_2_alg».proof.Proof.Gen.KernelIdeal
import proofs.«155087_j42863773614285_2_alg».proof.Proof.Gen.KernelIdeal.Skeleton
import proofs.«155087_j42863773614285_2_alg».proof.Proof.Gen.KernelIdeal.Launch
import proofs.«155087_j42863773614285_2_alg».proof.Proof.Gen.KernelIdeal.Points
import proofs.«155087_j42863773614285_2_alg».proof.Proof.Gen.KernelIdeal.Frame
import proofs.«155087_j42863773614285_2_alg».proof.Proof.Gen.ReferenceIdeal
import proofs.«155087_j42863773614285_2_alg».proof.Proof.Gen.Pre_finite_inputs
import proofs.«155087_j42863773614285_2_alg».proof.Proof.KRun
import proofs.«155087_j42863773614285_2_alg».proof.Proof.KValue
import proofs.«155087_j42863773614285_2_alg».proof.Proof.RefRun
import proofs.«155087_j42863773614285_2_alg».proof.Proof.RefValue
import proofs.«155087_j42863773614285_2_alg».proof.Proof.RefBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and writes no argument: its run, each argument buffer read back through the five stretches. -/
theorem frame_referenceIdeal : Cert.frame_ReferenceIdeal := fun m ρ _ =>
  (θ_run Cert.ReferenceIdeal.defs _ _).mono (fun _ h c =>
      ⟨(h c Cert.ReferenceIdeal.main_arg0).trans (Cert.ReferenceIdeal.RefValue.kept_arg0 _),
       (h c Cert.ReferenceIdeal.main_arg1).trans (Cert.ReferenceIdeal.RefValue.kept_arg1 _),
       (h c Cert.ReferenceIdeal.main_arg2).trans (Cert.ReferenceIdeal.RefValue.kept_arg2 _),
       (h c Cert.ReferenceIdeal.main_arg3).trans (Cert.ReferenceIdeal.RefValue.kept_arg3 _),
       (h c Cert.ReferenceIdeal.main_arg4).trans (Cert.ReferenceIdeal.RefValue.kept_arg4 _),
       (h c Cert.ReferenceIdeal.main_arg5).trans (Cert.ReferenceIdeal.RefValue.kept_arg5 _)⟩)
    (Cert.ReferenceIdeal.RefRun.run_main (F := Ideal) m ρ)

theorem preserves : Cert.preserves_Kernel_KernelIdeal := trivial

/-- Equal arguments, equal results. -/
theorem out_congr {x x' : FVec Ideal Cert.ReferenceIdeal.S100000x128 .f32} {w1 w1' : FVec Ideal Cert.ReferenceIdeal.S128x64 .f32}
    {b1 b1' : FVec Ideal Cert.ReferenceIdeal.S64 .f32} {w2 w2' : FVec Ideal Cert.ReferenceIdeal.S64x4 .f32} {b2 b2' : FVec Ideal Cert.ReferenceIdeal.S4 .f32}
    {e e' : Cert.ReferenceIdeal.Chain.EdgeArr} (h0 : x = x') (h1 : w1 = w1') (h2 : b1 = b1') (h3 : w2 = w2') (h4 : b2 = b2') (h5 : e = e') :
    Cert.Out.out x w1 b1 w2 b2 e = Cert.Out.out x' w1' b1' w2' b2' e' := by
  rw [h0, h1, h2, h3, h4, h5]

/-- Both runs end with the result buffer at `out` of the arguments, which agree. -/
theorem algebraic : Cert.algebraic_KernelIdeal_ReferenceIdeal := by
  intro m ρ m' ρ' _ hagree
  refine ⟨fun c => Cert.Out.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.KValue.result m ρ c), (h c).2⟩)
      (Cert.KernelIdeal.KRun.run_result (F := Ideal) m ρ)
  · refine (θ_run Cert.ReferenceIdeal.defs _ _).mono (fun r h c => ⟨?_,
       (h c Cert.ReferenceIdeal.main_arg0).trans (Cert.ReferenceIdeal.RefValue.kept_arg0 _),
       (h c Cert.ReferenceIdeal.main_arg1).trans (Cert.ReferenceIdeal.RefValue.kept_arg1 _),
       (h c Cert.ReferenceIdeal.main_arg2).trans (Cert.ReferenceIdeal.RefValue.kept_arg2 _),
       (h c Cert.ReferenceIdeal.main_arg3).trans (Cert.ReferenceIdeal.RefValue.kept_arg3 _),
       (h c Cert.ReferenceIdeal.main_arg4).trans (Cert.ReferenceIdeal.RefValue.kept_arg4 _),
       (h c Cert.ReferenceIdeal.main_arg5).trans (Cert.ReferenceIdeal.RefValue.kept_arg5 _)⟩)
      (Cert.ReferenceIdeal.RefRun.run_main (F := Ideal) m' ρ')
    refine (h c Cert.ReferenceIdeal.main_v75).trans ((Cert.ReferenceIdeal.RefValue.out_eq _).trans ((Cert.ReferenceIdeal.RefBridge.out_eq_out _ _ _ _ _ _).trans ?_))
    obtain ⟨e0, e1, e2, e3, e4, e5⟩ := hagree c
    exact out_congr e0 e1 e2 e3 e4 e5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
